-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x240 : Shape := ⟨3, ![4096, 32, 240]⟩
abbrev S4096x32x16 : Shape := ⟨3, ![4096, 32, 16]⟩
abbrev S256x256 : Shape := ⟨2, ![256, 256]⟩
abbrev S64x256 : Shape := ⟨2, ![64, 256]⟩
abbrev S16x64 : Shape := ⟨2, ![16, 64]⟩
abbrev S_ : Shape := ⟨0, ![]⟩

class Facts : Prop where
  bcast_S_S4096x32x240 : S_.BroadcastsInDim S4096x32x240 (![] : Fin 0 → Fin S4096x32x240.rank)
  reducesTo_S4096x32x240_S_d0_1_2 : S4096x32x240.ReducesTo [0, 1, 2] S_
  h_S_ : 0 < S_.numel
  bcast_S_S4096x32x16 : S_.BroadcastsInDim S4096x32x16 (![] : Fin 0 → Fin S4096x32x16.rank)
  reducesTo_S4096x32x16_S_d0_1_2 : S4096x32x16.ReducesTo [0, 1, 2] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S256x256 .f32) (main_arg5 : FVec F S64x256 .f32) (main_arg6 : FVec F S16x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S16x64 .f32 := Host.absf main_arg6
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  main_v33

def fn {F : FTy → Type} [FloatOps F] (main_arg0 : FVec F S4096x32x240 .f32) (main_arg1 : FVec F S4096x32x16 .f32) (main_arg2 : FVec F S256x256 .f32) (main_arg3 : FVec F S256x256 .f32) (main_arg4 : FVec F S256x256 .f32) (main_arg5 : FVec F S64x256 .f32) (main_arg6 : FVec F S16x64 .f32) : IVec S_ 1 :=
  let main_v0 : FVec F S4096x32x240 .f32 := Host.absf main_arg0
  let main_cst : FVec F S_ .f32 := constant S_ .f32 0x7F800000#32
  let main_v1 : FVec F S4096x32x240 .f32 := broadcastInDim S4096x32x240 ![] bcast_S_S4096x32x240 main_cst
  let main_v2 : IVec S4096x32x240 1 := cmpf .olt main_v0 main_v1
  let main_c : IVec S_ 1 := constantI S_ 1 1#1
  let main_v3 : IVec S_ 1 := (fun x v => Host.reduce IntOp.andi x v reducesTo_S4096x32x240_S_d0_1_2 h_S_) main_v2 main_c
  let main_v4 : FVec F S4096x32x16 .f32 := Host.absf main_arg1
  let main_cst_0 : FVec F S_ .f32 := constant S_ .f32 0x7F800000#32
  let main_v5 : FVec F S4096x32x16 .f32 := broadcastInDim S4096x32x16 ![] bcast_S_S4096x32x16 main_cst_0
  let main_v6 : IVec S4096x32x16 1 := cmpf .olt main_v4 main_v5
  let main_c_1 : IVec S_ 1 := constantI S_ 1 1#1
  let main_v7 : IVec S_ 1 := (fun x v => Host.reduce IntOp.andi x v reducesTo_S4096x32x16_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4096x32x240 : Shape := ⟨3, ![4096, 32, 240]⟩
abbrev S4096x32x16 : Shape := ⟨3, ![4096, 32, 16]⟩
abbrev S256x256 : Shape := ⟨2, ![256, 256]⟩
abbrev S64x256 : Shape := ⟨2, ![64, 256]⟩
abbrev S16x64 : Shape := ⟨2, ![16, 64]⟩
abbrev S256x64 : Shape := ⟨2, ![256, 64]⟩
abbrev S64x16 : Shape := ⟨2, ![64, 16]⟩
abbrev S4096x32x32x1 : Shape := ⟨4, ![4096, 32, 32, 1]⟩
abbrev S64x32x240 : Shape := ⟨3, ![64, 32, 240]⟩
abbrev S64x32x16 : Shape := ⟨3, ![64, 32, 16]⟩
abbrev S64x32x32x1 : Shape := ⟨4, ![64, 32, 32, 1]⟩
abbrev S64x32x256 : Shape := ⟨3, ![64, 32, 256]⟩
abbrev S2048x256 : Shape := ⟨2, ![2048, 256]⟩
abbrev S64x32x32 : Shape := ⟨3, ![64, 32, 32]⟩
abbrev S64x32 : Shape := ⟨2, ![64, 32]⟩
abbrev S64x32x1 : Shape := ⟨3, ![64, 32, 1]⟩
abbrev S2048x64 : Shape := ⟨2, ![2048, 64]⟩
abbrev S2048x16 : Shape := ⟨2, ![2048, 16]⟩

abbrev nBuf : Space → Nat
  | .hbm => 19
  | .vmem => 13
  | .smem => 0
  | _ => 0

abbrev bufTy : (tb : Table) → Fin (tcTables nBuf tb) → BufTy
  | .hbm, ⟨0, _⟩ => ⟨S4096x32x240, .f32⟩
  | .hbm, ⟨1, _⟩ => ⟨S4096x32x16, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S64x256, .f32⟩
  | .hbm, ⟨6, _⟩ => ⟨S16x64, .f32⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S256x256, .f32⟩
  | .hbm, ⟨12, _⟩ => ⟨S256x256, .bf16⟩
  | .hbm, ⟨13, _⟩ => ⟨S256x64, .f32⟩
  | .hbm, ⟨14, _⟩ => ⟨S256x64, .bf16⟩
  | .hbm, ⟨15, _⟩ => ⟨S64x16, .f32⟩
  | .hbm, ⟨16, _⟩ => ⟨S64x16, .bf16⟩
  | .hbm, ⟨17, _⟩ => ⟨S4096x32x16, .f32⟩
  | .hbm, ⟨18, _⟩ => ⟨S4096x32x32x1, .f32⟩
  | .local _ .vmem, ⟨0, _⟩ => ⟨S64x32x240, .f32⟩
  | .local _ .vmem, ⟨1, _⟩ => ⟨S64x32x240, .f32⟩
  | .local _ .vmem, ⟨2, _⟩ => ⟨S64x32x16, .f32⟩
  | .local _ .vmem, ⟨3, _⟩ => ⟨S64x32x16, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x64, .bf16⟩
  | .local _ .vmem, ⟨8, _⟩ => ⟨S64x16, .bf16⟩
  | .local _ .vmem, ⟨9, _⟩ => ⟨S64x32x16, .f32⟩
  | .local _ .vmem, ⟨10, _⟩ => ⟨S64x32x16, .f32⟩
  | .local _ .vmem, ⟨11, _⟩ => ⟨S64x32x32x1, .f32⟩
  | .local _ .vmem, ⟨12, _⟩ => ⟨S64x32x32x1, .f32⟩
  | _, _ => ⟨S4096x32x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x32x240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x32x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x32x32x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S256x256_S256x256_1_0 : S256x256.Transposes [1, 0] S256x256
  bitsLt_bf16_f32 : FTy.bits .bf16 < FTy.bits .f32
  transposes_S64x256_S256x64_1_0 : S64x256.Transposes [1, 0] S256x64
  transposes_S16x64_S64x16_1_0 : S16x64.Transposes [1, 0] S64x16
  inb_S64x32x240_S64x32x240_0_0_0 : ∀ a, (![0, 0, 0] : Fin 3 → Nat) a + S64x32x240.size a ≤ S64x32x240.size a
  h_S64x32x240 : 0 < S64x32x240.numel
  inb_S64x32x16_S64x32x16_0_0_0 : ∀ a, (![0, 0, 0] : Fin 3 → Nat) a + S64x32x16.size a ≤ S64x32x16.size a
  h_S64x32x16 : 0 < S64x32x16.numel
  concatenates_S64x32x240_S64x32x16_S64x32x256_d2 : Shape.Concatenates [S64x32x240, S64x32x16] S64x32x256 2
  shapeCasts_S64x32x256_S2048x256 : S64x32x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S64x32x256 : S2048x256.ShapeCasts S64x32x256
  reduces_S64x32x32_S64x32 : S64x32x32.Reduces [2] S64x32
  shapeCasts_S64x32_S64x32x1 : S64x32.ShapeCasts S64x32x1
  broadcasts_S64x32x1_S64x32x32 : S64x32x1.Broadcasts S64x32x32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  shapeCasts_S2048x16_S64x32x16 : S2048x16.ShapeCasts S64x32x16
  shapeCasts_S64x32x32_S64x32x32x1 : S64x32x32.ShapeCasts S64x32x32x1
  inb_S64x32x32x1_S64x32x32x1_0_0_0_0 : ∀ a, (![0, 0, 0, 0] : Fin 4 → Nat) a + S64x32x32x1.size a ≤ S64x32x32x1.size a
  h_S64x32x32x1 : 0 < S64x32x32x1.numel
  dot_S2048x256_S256x256_S2048x256_1_0_0_1_n_n_wf : DotDims.WF S2048x256 S256x256 S2048x256 [1] [0] [0] [1] [] []
  dot_S64x32x256_S64x32x256_S64x32x32_2_2_1_1_0_0_wf : DotDims.WF S64x32x256 S64x32x256 S64x32x32 [2] [2] [1] [1] [0] [0]
  dot_S64x32x32_S64x32x256_S64x32x256_2_1_1_2_0_0_wf : DotDims.WF S64x32x32 S64x32x256 S64x32x256 [2] [1] [1] [2] [0] [0]
  dot_S2048x256_S256x64_S2048x64_1_0_0_1_n_n_wf : DotDims.WF S2048x256 S256x64 S2048x64 [1] [0] [0] [1] [] []
  dot_S2048x64_S64x16_S2048x16_1_0_0_1_n_n_wf : DotDims.WF S2048x64 S64x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x240.size a ≤ S4096x32x240.size a
  hwx0_0 : ∀ i : grid0.Coords, EltTy.bits .f32 = 32 ∨ (Rect.block (s := S4096x32x240) S64x32x240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x16.size a ≤ S4096x32x16.size a
  hwx0_1 : ∀ i : grid0.Coords, EltTy.bits .f32 = 32 ∨ (Rect.block (s := S4096x32x16) S64x32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x16.size a ≤ S64x16.size a
  hwx0_6 : ∀ i : grid0.Coords, EltTy.bits .bf16 = 32 ∨ (Rect.block (s := S64x16) S64x16.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x32x16.size a ≤ S4096x32x16.size a
  hwx0_7 : ∀ i : grid0.Coords, EltTy.bits .f32 = 32 ∨ (Rect.block (s := S4096x32x16) S64x32x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x32x32x1.size a ≤ S4096x32x32x1.size a
  hwx0_8 : ∀ i : grid0.Coords, EltTy.bits .f32 = 32 ∨ (Rect.block (s := S4096x32x32x1) S64x32x32x1.size (cc0_transform_8 i) (hinb0_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S64x32x256_S64x32x256_S64x32x32_2_2_1_1_0_0 : DotDims S64x32x256 S64x32x256 S64x32x32 where
  lhsContracting := [2]
  rhsContracting := [2]
  lhsNonContracting := [1]
  rhsNonContracting := [1]
  lhsBatch := [0]
  rhsBatch := [0]
  wf := dot_S64x32x256_S64x32x256_S64x32x32_2_2_1_1_0_0_wf
def dot_S64x32x32_S64x32x256_S64x32x256_2_1_1_2_0_0 : DotDims S64x32x32 S64x32x256 S64x32x256 where
  lhsContracting := [2]
  rhsContracting := [1]
  lhsNonContracting := [1]
  rhsNonContracting := [2]
  lhsBatch := [0]
  rhsBatch := [0]
  wf := dot_S64x32x32_S64x32x256_S64x32x256_2_1_1_2_0_0_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf

abbrev win0_0 : Pipeline.Window sig grid0 :=
  Pipeline.Window.ofSpec (Memref.whole main_arg0) S64x32x240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S64x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S64x32x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S64x32x32x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x32x240 : Shape := ⟨3, ![4096, 32, 240]⟩
abbrev S4096x32x16 : Shape := ⟨3, ![4096, 32, 16]⟩
abbrev S256x256 : Shape := ⟨2, ![256, 256]⟩
abbrev S64x256 : Shape := ⟨2, ![64, 256]⟩
abbrev S16x64 : Shape := ⟨2, ![16, 64]⟩
abbrev S4096x32x256 : Shape := ⟨3, ![4096, 32, 256]⟩
abbrev S4096x32x32 : Shape := ⟨3, ![4096, 32, 32]⟩
abbrev S_ : Shape := ⟨0, ![]⟩
abbrev S4096x32 : Shape := ⟨2, ![4096, 32]⟩
abbrev S4096x32x1 : Shape := ⟨3, ![4096, 32, 1]⟩
abbrev S4096x32x64 : Shape := ⟨3, ![4096, 32, 64]⟩
abbrev S4096x32x32x1 : Shape := ⟨4, ![4096, 32, 32, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x32x240, .f32⟩
  | .hbm, ⟨1, _⟩ => ⟨S4096x32x16, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S64x256, .f32⟩
  | .hbm, ⟨6, _⟩ => ⟨S16x64, .f32⟩
  | .hbm, ⟨7, _⟩ => ⟨S4096x32x256, .f32⟩
  | .hbm, ⟨8, _⟩ => ⟨S4096x32x256, .f32⟩
  | .hbm, ⟨9, _⟩ => ⟨S4096x32x256, .f32⟩
  | .hbm, ⟨10, _⟩ => ⟨S4096x32x256, .f32⟩
  | .hbm, ⟨11, _⟩ => ⟨S4096x32x32, .f32⟩
  | .hbm, ⟨12, _⟩ => ⟨S_, .f32⟩
  | .hbm, ⟨13, _⟩ => ⟨S_, .f32⟩
  | .hbm, ⟨14, _⟩ => ⟨S4096x32x32, .f32⟩
  | .hbm, ⟨15, _⟩ => ⟨S4096x32x32, .f32⟩
  | .hbm, ⟨16, _⟩ => ⟨S_, .f32⟩
  | .hbm, ⟨17, _⟩ => ⟨S4096x32, .f32⟩
  | .hbm, ⟨18, _⟩ => ⟨S_, .f32⟩
  | .hbm, ⟨19, _⟩ => ⟨S4096x32, .f32⟩
  | .hbm, ⟨20, _⟩ => ⟨S4096x32, .f32⟩
  | .hbm, ⟨21, _⟩ => ⟨S4096x32x1, .f32⟩
  | .hbm, ⟨22, _⟩ => ⟨S4096x32x32, .f32⟩
  | .hbm, ⟨23, _⟩ => ⟨S4096x32x32, .f32⟩
  | .hbm, ⟨24, _⟩ => ⟨S4096x32x32, .f32⟩
  | .hbm, ⟨25, _⟩ => ⟨S_, .f32⟩
  | .hbm, ⟨26, _⟩ => ⟨S4096x32, .f32⟩
  | .hbm, ⟨27, _⟩ => ⟨S4096x32x1, .f32⟩
  | .hbm, ⟨28, _⟩ => ⟨S4096x32x32, .f32⟩
  | .hbm, ⟨29, _⟩ => ⟨S4096x32x32, .f32⟩
  | .hbm, ⟨30, _⟩ => ⟨S4096x32x256, .f32⟩
  | .hbm, ⟨31, _⟩ => ⟨S_, .f32⟩
  | .hbm, ⟨32, _⟩ => ⟨S4096x32x256, .f32⟩
  | .hbm, ⟨33, _⟩ => ⟨S4096x32x256, .f32⟩
  | .hbm, ⟨34, _⟩ => ⟨S4096x32x64, .f32⟩
  | .hbm, ⟨35, _⟩ => ⟨S_, .f32⟩
  | .hbm, ⟨36, _⟩ => ⟨S_, .f32⟩
  | .hbm, ⟨37, _⟩ => ⟨S4096x32x64, .f32⟩
  | .hbm, ⟨38, _⟩ => ⟨S4096x32x64, .i1⟩
  | .hbm, ⟨39, _⟩ => ⟨S_, .f32⟩
  | .hbm, ⟨40, _⟩ => ⟨S4096x32x64, .f32⟩
  | .hbm, ⟨41, _⟩ => ⟨S4096x32x64, .f32⟩
  | .hbm, ⟨42, _⟩ => ⟨S4096x32x64, .f32⟩
  | .hbm, ⟨43, _⟩ => ⟨S4096x32x16, .f32⟩
  | .hbm, ⟨44, _⟩ => ⟨S4096x32x32x1, .f32⟩
  | _, _ => ⟨S4096x32x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  concatenates_S4096x32x240_S4096x32x16_S4096x32x256_d2 : Shape.Concatenates [S4096x32x240, S4096x32x16] S4096x32x256 2
  bcast_S_S4096x32x32 : S_.BroadcastsInDim S4096x32x32 (![] : Fin 0 → Fin S4096x32x32.rank)
  reducesTo_S4096x32x32_S4096x32_d2 : S4096x32x32.ReducesTo [2] S4096x32
  h_S_ : 0 < S_.numel
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x32x1_S4096x32x32_0_1_2 : S4096x32x1.BroadcastsInDim S4096x32x32 (![0, 1, 2] : Fin 3 → Fin S4096x32x32.rank)
  bcast_S_S4096x32x256 : S_.BroadcastsInDim S4096x32x256 (![] : Fin 0 → Fin S4096x32x256.rank)
  bcast_S_S4096x32x64 : S_.BroadcastsInDim S4096x32x64 (![] : Fin 0 → Fin S4096x32x64.rank)
  bcast_S4096x32x32_S4096x32x32x1_0_1_2 : S4096x32x32.BroadcastsInDim S4096x32x32x1 (![0, 1, 2] : Fin 3 → Fin S4096x32x32x1.rank)
  dot_S4096x32x256_S256x256_S4096x32x256_2_1_01_0_n_n_wf : DotDims.WF S4096x32x256 S256x256 S4096x32x256 [2] [1] [0, 1] [0] [] []
  dot_S4096x32x256_S4096x32x256_S4096x32x32_2_2_1_1_0_0_wf : DotDims.WF S4096x32x256 S4096x32x256 S4096x32x32 [2] [2] [1] [1] [0] [0]
  dot_S4096x32x32_S4096x32x256_S4096x32x256_2_1_1_2_0_0_wf : DotDims.WF S4096x32x32 S4096x32x256 S4096x32x256 [2] [1] [1] [2] [0] [0]
  dot_S4096x32x256_S64x256_S4096x32x64_2_1_01_0_n_n_wf : DotDims.WF S4096x32x256 S64x256 S4096x32x64 [2] [1] [0, 1] [0] [] []
  dot_S4096x32x64_S16x64_S4096x32x16_2_1_01_0_n_n_wf : DotDims.WF S4096x32x64 S16x64 S4096x32x16 [2] [1] [0, 1] [0] [] []

variable [Facts₀]

def dot_S4096x32x256_S256x256_S4096x32x256_2_1_01_0_n_n : DotDims S4096x32x256 S256x256 S4096x32x256 where
  lhsContracting := [2]
  rhsContracting := [1]
  lhsNonContracting := [0, 1]
  rhsNonContracting := [0]
  lhsBatch := []
  rhsBatch := []
  wf := dot_S4096x32x256_S256x256_S4096x32x256_2_1_01_0_n_n_wf
def dot_S4096x32x256_S4096x32x256_S4096x32x32_2_2_1_1_0_0 : DotDims S4096x32x256 S4096x32x256 S4096x32x32 where
  lhsContracting := [2]
  rhsContracting := [2]
  lhsNonContracting := [1]
  rhsNonContracting := [1]
  lhsBatch := [0]
  rhsBatch := [0]
  wf := dot_S4096x32x256_S4096x32x256_S4096x32x32_2_2_1_1_0_0_wf
def dot_S4096x32x32_S4096x32x256_S4096x32x256_2_1_1_2_0_0 : DotDims S4096x32x32 S4096x32x256 S4096x32x256 where
  lhsContracting := [2]
  rhsContracting := [1]
  lhsNonContracting := [1]
  rhsNonContracting := [2]
  lhsBatch := [0]
  rhsBatch := [0]
  wf := dot_S4096x32x32_S4096x32x256_S4096x32x256_2_1_1_2_0_0_wf
def dot_S4096x32x256_S64x256_S4096x32x64_2_1_01_0_n_n : DotDims S4096x32x256 S64x256 S4096x32x64 where
  lhsContracting := [2]
  rhsContracting := [1]
  lhsNonContracting := [0, 1]
  rhsNonContracting := [0]
  lhsBatch := []
  rhsBatch := []
  wf := dot_S4096x32x256_S64x256_S4096x32x64_2_1_01_0_n_n_wf
def dot_S4096x32x64_S16x64_S4096x32x16_2_1_01_0_n_n : DotDims S4096x32x64 S16x64 S4096x32x16 where
  lhsContracting := [2]
  rhsContracting := [1]
  lhsNonContracting := [0, 1]
  rhsNonContracting := [0]
  lhsBatch := []
  rhsBatch := []
  wf := dot_S4096x32x64_S16x64_S4096x32x16_2_1_01_0_n_n_wf

class Facts : Prop extends Facts₀ where

variable [Facts]
-- ==== Proof.KernelTerm.lean ====
/-
  The kernel's body, stage by stage, on one block of 64 batch items.

  Each definition is one step of the attention network as the kernel spells it on the blocks it loads: the two inputs
  side by side, all 64 · 32 agents laid out as 2048 rows for the dense projections, the scaled scores batch item by
  batch item, a stable softmax along the last axis, the mixture of value rows, and the output network on 2048 rows.
  The equations at the end say that the body's stored values are these stages composed.
-/
import proofs.«172909_j61976378081551_1_alg».proof.Proof.Gen.KernelIdeal.Skeleton

noncomputable section

namespace Cert.KernelIdeal.Stage

open Cert.KernelIdeal Cert.KernelIdeal.Gen Idealize.ShloMosaic

variable {F : FTy → Type} [FloatOps F]

/-- States and actions side by side along the feature axis. -/
def cat (v0 : Vec F S64x32x240 .f32) (v1 : Vec F S64x32x16 .f32) : FVec F S64x32x256 .f32 :=
  concatenate S64x32x256 2 [⟨S64x32x240, v0⟩, ⟨S64x32x16, v1⟩] concatenates_S64x32x240_S64x32x16_S64x32x256_d2

/-- The 64 · 32 agents as 2048 rows (and a change of format, which keeps every number). -/
def rows (x : FVec F S64x32x256 .f32) : FVec F S2048x256 .bf16 :=
  truncf .bf16 (shapeCast S2048x256 x shapeCasts_S64x32x256_S2048x256) bitsLt_bf16_f32

/-- A dense projection of the 2048 rows by a 256 × 256 matrix stored transposed, cut back into 64 items of 32 rows. -/
def proj (xf : FVec F S2048x256 .bf16) (w : Vec F S256x256 .bf16) : FVec F S64x32x256 .f32 :=
  shapeCast S64x32x256
    (matmul dot_S2048x256_S256x256_S2048x256_1_0_0_1_n_n none xf (shapeCast S256x256 w shapeCasts_S256x256_S256x256)
      (constant S2048x256 .f32 0x00000000#32))
    shapeCasts_S2048x256_S64x32x256

/-- The scores: within a batch item the inner products of key rows with query rows, times one sixteenth. -/
def score (K Q : FVec F S64x32x256 .f32) : FVec F S64x32x32 .f32 :=
  mulf (matmul dot_S64x32x256_S64x32x256_S64x32x32_2_2_1_1_0_0 none (truncf .bf16 K bitsLt_bf16_f32)
      (truncf .bf16 Q bitsLt_bf16_f32) (constant S64x32x32 .f32 0x00000000#32))
    (broadcast S64x32x32 (Scalar.ofBits .f32 0x3D800000#32))

/-- The row maximum of the scores (started from minus infinity), kept per batch item and row. -/
def rowMax (s : FVec F S64x32x32 .f32) : FVec F S64x32 .f32 :=
  maximumf (broadcast S64x32 (Scalar.ofBits .f32 0xFF800000#32))
    (multiReduction .maximumf [2] S64x32 s 0xFF800000#32 reduces_S64x32x32_S64x32 (.inl rfl) rfl)

/-- A per-row number repeated along the row. -/
def alongRow (v : FVec F S64x32 .f32) : FVec F S64x32x32 .f32 :=
  broadcastTo S64x32x32 (shapeCast S64x32x1 v shapeCasts_S64x32_S64x32x1) broadcasts_S64x32x1_S64x32x32

/-- The exponentials of the scores shifted by their row maximum. -/
def expShift (s : FVec F S64x32x32 .f32) : FVec F S64x32x32 .f32 :=
  exp (subf s (alongRow (rowMax s)))

/-- The stable softmax along the last axis: shifted exponentials over their row sum. -/
def soft (s : FVec F S64x32x32 .f32) : FVec F S64x32x32 .f32 :=
  divf (expShift s)
    (alongRow (multiReduction .add [2] S64x32 (expShift s) 0x00000000#32 reduces_S64x32x32_S64x32 (.inl rfl) rfl))

/-- The mixture of value rows by the attention weights, batch item by batch item. -/
def mix (w : FVec F S64x32x32 .f32) (V : FVec F S64x32x256 .f32) : FVec F S64x32x256 .f32 :=
  matmul dot_S64x32x32_S64x32x256_S64x32x256_2_1_1_2_0_0 none (truncf .bf16 w bitsLt_bf16_f32)
    (truncf .bf16 V bitsLt_bf16_f32) (constant S64x32x256 .f32 0x00000000#32)

/-- The mixture divided entry by entry, as 2048 rows. -/
def avgRows (z c : FVec F S64x32x256 .f32) : FVec F S2048x256 .bf16 :=
  truncf .bf16 (shapeCast S2048x256 (divf z c) shapeCasts_S64x32x256_S2048x256) bitsLt_bf16_f32

/-- The first layer of the output network on 2048 rows: 256 features to 64, the matrix stored transposed. -/
def hidden (zf : FVec F S2048x256 .bf16) (w1 : Vec F S256x64 .bf16) : FVec F S2048x64 .f32 :=
  matmul dot_S2048x256_S256x64_S2048x64_1_0_0_1_n_n none zf (shapeCast S256x64 w1 shapeCasts_S256x64_S256x64)
    (constant S2048x64 .f32 0x00000000#32)

/-- The leaky rectifier: a number that is at least zero is kept, any other is multiplied by the slope. -/
def leaky (h : FVec F S2048x64 .f32) : FVec F S2048x64 .f32 :=
  select (cmpf .oge h (broadcast S2048x64 (Scalar.ofBits .f32 0x00000000#32))) h
    (mulf (broadcast S2048x64 (Scalar.ofBits .f32 0x3C23D70A#32)) h)

/-- The second layer on 2048 rows, 64 features to 16, cut back into 64 items of 32 rows. -/
def outp (h : FVec F S2048x64 .f32) (w2 : Vec F S64x16 .bf16) : FVec F S64x32x16 .f32 :=
  shapeCast S64x32x16
    (matmul dot_S2048x64_S64x16_S2048x16_1_0_0_1_n_n none (truncf .bf16 h bitsLt_bf16_f32)
      (shapeCast S64x16 w2 shapeCasts_S64x16_S64x16) (constant S2048x16 .f32 0x00000000#32))
    shapeCasts_S2048x16_S64x32x16

/-- The rows the projections read are the inputs side by side. -/
theorem pay3_eq (v0 : Vec F S64x32x240 .f32) (v1 : Vec F S64x32x16 .f32) : k0_pay3 v0 v1 = rows (cat v0 v1) := rfl

/-- The stored attention weights are the softmax of the scores of keys against queries. -/
theorem pay4_eq (v0 : Vec F S64x32x240 .f32) (v1 : Vec F S64x32x16 .f32) (v5 v7 : Vec F S256x256 .bf16) :
    k0_pay4 v0 v1 v5 v7 = soft (score (proj (rows (cat v0 v1)) v5) (proj (rows (cat v0 v1)) v7)) := rfl

/-- The mixture is the weights against the projected values. -/
theorem pay5_eq (v0 : Vec F S64x32x240 .f32) (v1 : Vec F S64x32x16 .f32) (v5 v7 v9 : Vec F S256x256 .bf16) :
    k0_pay5 v0 v1 v5 v7 v9 = mix (k0_pay4 v0 v1 v5 v7) (proj (rows (cat v0 v1)) v9) := rfl

/-- The divisor of the mixture is the constant 32. -/
theorem pay6_eq : k0_pay6 (F := F) = broadcast S64x32x256 (Scalar.ofBits .f32 0x42000000#32) := rfl

/-- The stored advantages are the output network applied to the divided mixture. -/
theorem pay1_eq (v35 v36 : FVec F S64x32x256 .f32) (v40 : Vec F S256x64 .bf16) (v42 : Vec F S64x16 .bf16) :
    k0_pay1 v35 v36 v40 v42 = outp (leaky (hidden (avgRows v35 v36) v40)) v42 := rfl

end Cert.KernelIdeal.Stage

end
-- ==== Proof.AttnSpec.lean ====
/-
  The attention network on one batch item, entry by entry, over the extended reals.

  One batch item is 32 agents with 256 features each (240 observed, 16 of the action).  Keys, queries and values are
  dense projections of the features; the score of agent `i` against agent `j` is the inner product of key `i` with
  query `j`, scaled; each row of scores goes through a stable softmax; the weights mix the value rows, the mixture is
  divided by the number of agents, and a two-layer network with a leaky rectifier reads the result.  Every function here
  is written with the exact operations on the extended reals, so a program's array read at an index can be compared with
  it term by term.  The batch axis never mixes: an array with `B` batch items is these functions applied to each item.
-/
import Idealize.ShloMosaic.PureOps.Ideal
import Idealize.ShloMosaic.Lib.ValueIdx

noncomputable section

namespace Cert.Attn

open Idealize.ShloMosaic Idealize.ShloMosaic.ValueIdx

/-- Minus infinity, as its single-precision word. -/
abbrev ninf : EReal := Ideal.ofBits .f32 0xFF800000#32
/-- The score scale `1/16`, as its single-precision word. -/
abbrev scale : EReal := Ideal.ofBits .f32 0x3D800000#32
/-- The number of agents, 32, as its single-precision word. -/
abbrev agents : EReal := Ideal.ofBits .f32 0x42000000#32
/-- The rectifier's slope (the single-precision number nearest 0.01), as its word. -/
abbrev slope : EReal := Ideal.ofBits .f32 0x3C23D70A#32
/-- Zero, as its single-precision word. -/
abbrev zero : EReal := Ideal.ofBits .f32 0x00000000#32

/-- A dense layer without bias: row `n` of `X` against row `k` of the weights. -/
def dense {N D K : ℕ} (X : Fin N → Fin D → EReal) (W : Fin K → Fin D → EReal) (n : Fin N) (k : Fin K) : EReal :=
  ∑ d : Fin D, X n d * W k d

/-- The scaled score of key row `i` against query row `j`. -/
def scores {N D : ℕ} (K Q : Fin N → Fin D → EReal) (i j : Fin N) : EReal :=
  (∑ d : Fin D, K i d * Q j d) * scale

/-- The largest entry of a row, the maximum taken from minus infinity (and once more against it). -/
def rowTop {N : ℕ} (s : Fin N → EReal) : EReal :=
  max ninf ((Finset.univ : Finset (Fin N)).fold max ninf s)

/-- The exponential of an entry shifted by its row's largest entry. -/
def shifted {N : ℕ} (s : Fin N → EReal) (j : Fin N) : EReal :=
  Ideal.exp (s j - rowTop s)

/-- The stable softmax of a row: shifted exponentials over their sum. -/
def softRow {N : ℕ} (s : Fin N → EReal) (j : Fin N) : EReal :=
  Ideal.div (shifted s j) (∑ k : Fin N, shifted s k)

/-- The value rows mixed by a row of weights, divided by the number of agents. -/
def mixed {N D : ℕ} (w : Fin N → Fin N → EReal) (V : Fin N → Fin D → EReal) (i : Fin N) (d : Fin D) : EReal :=
  Ideal.div (∑ j : Fin N, w i j * V j d) agents

/-- The leaky rectifier: a number that is at least zero is kept, any other is multiplied by the slope. -/
def leak (x : EReal) : EReal :=
  Scalar.select (Ideal.cmp .oge x zero) x (slope * x)

/-- The attention weights of one batch item. -/
def weightsOf (X : Fin 32 → Fin 256 → EReal) (Wk Wq : Fin 256 → Fin 256 → EReal) (i j : Fin 32) : EReal :=
  softRow (scores (dense X Wk) (dense X Wq) i) j

/-- The advantages of one batch item. -/
def advOf (X : Fin 32 → Fin 256 → EReal) (Wk Wq Wv : Fin 256 → Fin 256 → EReal) (W1 : Fin 64 → Fin 256 → EReal)
    (W2 : Fin 16 → Fin 64 → EReal) (n : Fin 32) (o : Fin 16) : EReal :=
  dense (fun n h => leak (dense (mixed (weightsOf X Wk Wq) (dense X Wv)) W1 n h)) W2 n o

/-- The features of agent `n` of batch item `b`: the 240 observed numbers, then the 16 of the action. -/
def feat {B : ℕ} (s : (⟨3, ![B, 32, 240]⟩ : Shape).Idx → EReal) (a : (⟨3, ![B, 32, 16]⟩ : Shape).Idx → EReal)
    (b : Fin B) (n : Fin 32) (d : Fin 256) : EReal :=
  if h : d.val < 240 then s (ix3 b n ⟨d.val, h⟩) else a (ix3 b n ⟨d.val - 240, by have := d.isLt; omega⟩)

/-- A weight matrix stored row by row, as a function of row and column. -/
def mat {K D : ℕ} (W : (⟨2, ![K, D]⟩ : Shape).Idx → EReal) (k : Fin K) (d : Fin D) : EReal := W (ix2 k d)

/-- A weight matrix stored transposed, as a function of row and column of the original. -/
def matT {K D : ℕ} (W : (⟨2, ![D, K]⟩ : Shape).Idx → EReal) (k : Fin K) (d : Fin D) : EReal := W (ix2 d k)

/-- The first result on `B` batch items: the advantages, item by item. -/
def advArr {B : ℕ} (s : (⟨3, ![B, 32, 240]⟩ : Shape).Idx → EReal) (a : (⟨3, ![B, 32, 16]⟩ : Shape).Idx → EReal)
    (Wk Wq Wv : Fin 256 → Fin 256 → EReal) (W1 : Fin 64 → Fin 256 → EReal) (W2 : Fin 16 → Fin 64 → EReal)
    (b : Fin B) (n : Fin 32) (o : Fin 16) : EReal :=
  advOf (feat s a b) Wk Wq Wv W1 W2 n o

/-- The second result on `B` batch items: the attention weights, item by item. -/
def wArr {B : ℕ} (s : (⟨3, ![B, 32, 240]⟩ : Shape).Idx → EReal) (a : (⟨3, ![B, 32, 16]⟩ : Shape).Idx → EReal)
    (Wk Wq : Fin 256 → Fin 256 → EReal) (b : Fin B) (i j : Fin 32) : EReal :=
  weightsOf (feat s a b) Wk Wq i j

end Cert.Attn

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibFlattenRows.lean ====
/-
  Rows of rows laid end to end, and cut again.

  An `[a, b, d]` array holds `a` groups of `b` rows of `d` numbers.  Flattening its two leading axes lays all `a * b`
  rows one after another: row `r = p * b + q` of the `[n, d]` result is row `q` of group `p`.  Splitting the leading
  axis of an `[n, d]` array into `a` groups of `b` is the same step backwards.  Neither changes a value; each entry of
  the result is one entry of the operand, named here by its coordinates.
-/
import Idealize.ShloMosaic.Lib.ValueIdx
import Idealize.ShloMosaic.Lib.Pipeline.Value

noncomputable section

namespace Idealize.ShloMosaic.FlattenRows

open Idealize.ShloMosaic Idealize.ShloMosaic.ValueIdx

variable {α : Type}

/-- An `[a, b, d]` array with its two leading axes flattened reads, at `(r, l)` with `r = p * b + q`, the array's
    entry `(p, q, l)`. -/
theorem shapeCast_flatten2_apply {a b d n : ℕ} (x : (⟨3, ![a, b, d]⟩ : Shape).Idx → α)
    (h : (⟨3, ![a, b, d]⟩ : Shape).ShapeCasts ⟨2, ![n, d]⟩) (p : Fin a) (q : Fin b) (l : Fin d)
    (r : Fin n) (hr : r.val = p.val * b + q.val) :
    shapeCast ⟨2, ![n, d]⟩ x h (ix2 r l) = x (ix3 p q l) :=
  shapeCast_apply x h _ _ (by
    rw [Shape.rowMajor_val_three, Shape.rowMajor_val_two]
    show (p.val * b + q.val) * d + l.val = r.val * d + l.val
    rw [hr])

/-- The same step backwards: an `[n, d]` array with its leading axis split in two reads, at `(p, q, l)`, the array's
    entry `(p * b + q, l)`. -/
theorem shapeCast_split2_apply {a b d n : ℕ} (y : (⟨2, ![n, d]⟩ : Shape).Idx → α)
    (h : (⟨2, ![n, d]⟩ : Shape).ShapeCasts ⟨3, ![a, b, d]⟩) (p : Fin a) (q : Fin b) (l : Fin d)
    (r : Fin n) (hr : r.val = p.val * b + q.val) :
    shapeCast ⟨3, ![a, b, d]⟩ y h (ix3 p q l) = y (ix2 r l) :=
  shapeCast_apply y h _ _ (by
    rw [Shape.rowMajor_val_three, Shape.rowMajor_val_two]
    show r.val * d + l.val = (p.val * b + q.val) * d + l.val
    rw [hr])

end Idealize.ShloMosaic.FlattenRows

end
-- ==== Proof.KernelDense.lean ====
/-
  The kernel's dense stages, read at an index over the extended reals.

  The kernel lays the 64 · 32 agents of a block out as 2048 rows, row `p · 32 + q` being agent `q` of batch item `p`,
  multiplies the rows by a weight matrix stored transposed, and cuts the result back into 64 items of 32 rows.  Read
  at `(p, q, k)` such a projection is the plain sum over the features of agent `(p, q)` against row `k` of the
  weights: a dense layer on batch item `p` alone.
-/
import proofs.«172909_j61976378081551_1_alg».proof.Proof.KernelTerm
import proofs.«172909_j61976378081551_1_alg».proof.Proof.AttnSpec
import proofs.«172909_j61976378081551_1_alg».proof.Proof.LibDenseBlock
import proofs.«172909_j61976378081551_1_alg».proof.Proof.LibFlattenRows
import Idealize.ShloMosaic.Lib.Pipeline.Value

noncomputable section

namespace Cert.Attn.KernelDense

open Cert.KernelIdeal Cert.KernelIdeal.Gen Idealize.ShloMosaic Idealize.ShloMosaic.ValueIdx
open Cert.KernelIdeal.Stage

/-- Row `p · 32 + q` of the 2048. -/
def row (p : Fin 64) (q : Fin 32) : Fin 2048 := ⟨p.val * 32 + q.val, by have := p.isLt; have := q.isLt; omega⟩

theorem row_val (p : Fin 64) (q : Fin 32) : (row p q).val = p.val * 32 + q.val := rfl

/-- The rows are the agents: row `p · 32 + q` holds agent `q` of batch item `p`. -/
theorem rows_apply (x : FVec Ideal S64x32x256 .f32) (p : Fin 64) (q : Fin 32) (d : Fin 256) :
    rows (F := Ideal) x (ix2 (row p q) d) = x (ix3 p q d) :=
  FlattenRows.shapeCast_flatten2_apply x shapeCasts_S64x32x256_S2048x256 p q d (row p q) (row_val p q)

/-- A projection at `(p, q, k)`: the features of row `p · 32 + q` against column `k` of the stored matrix. -/
theorem proj_apply (xf : FVec Ideal S2048x256 .bf16) (w : Vec Ideal S256x256 .bf16) (p : Fin 64) (q : Fin 32) (k : Fin 256) :
    proj (F := Ideal) xf w (ix3 p q k) = ∑ d : Fin 256, xf (ix2 (row p q) d) * w (ix2 d k) := by
  unfold proj
  rw [FlattenRows.shapeCast_split2_apply _ shapeCasts_S2048x256_S64x32x256 p q k (row p q) (row_val p q), shapeCast_self]
  exact DenseBlock.matmul_zero_apply (K := 2048) (N := 256) (Q := 256) dot_S2048x256_S256x256_S2048x256_1_0_0_1_n_n_wf xf w (row p q) k

/-- So a projection of the agents laid out as rows is a dense layer on each batch item by itself. -/
theorem proj_rows_apply (x : FVec Ideal S64x32x256 .f32) (w : Vec Ideal S256x256 .bf16) (p : Fin 64) (q : Fin 32) (k : Fin 256) :
    proj (F := Ideal) (rows x) w (ix3 p q k) = dense (fun n d => x (ix3 p n d)) (matT w) q k := by
  rw [proj_apply]
  exact Finset.sum_congr rfl fun d _ => by rw [rows_apply]; rfl

/-- The divided mixture laid out as rows: row `p · 32 + q` holds the quotients of agent `q` of batch item `p`. -/
theorem avgRows_apply (z c : FVec Ideal S64x32x256 .f32) (p : Fin 64) (q : Fin 32) (d : Fin 256) :
    avgRows (F := Ideal) z c (ix2 (row p q) d) = Ideal.div (z (ix3 p q d)) (c (ix3 p q d)) :=
  FlattenRows.shapeCast_flatten2_apply (divf z c) shapeCasts_S64x32x256_S2048x256 p q d (row p q) (row_val p q)

/-- The first output layer at row `r`: its 256 features against column `h` of the stored matrix. -/
theorem hidden_apply (zf : FVec Ideal S2048x256 .bf16) (w1 : Vec Ideal S256x64 .bf16) (r : Fin 2048) (h : Fin 64) :
    Stage.hidden (F := Ideal) zf w1 (ix2 r h) = ∑ d : Fin 256, zf (ix2 r d) * w1 (ix2 d h) := by
  unfold Stage.hidden
  rw [shapeCast_self]
  exact DenseBlock.matmul_zero_apply (K := 2048) (N := 256) (Q := 64) dot_S2048x256_S256x64_S2048x64_1_0_0_1_n_n_wf zf w1 r h

/-- The rectifier acts entry by entry. -/
theorem leaky_apply (h : FVec Ideal S2048x64 .f32) (i : S2048x64.Idx) : leaky (F := Ideal) h i = leak (h i) := rfl

/-- The second output layer at `(p, q, o)`: the 64 features of row `p · 32 + q` against column `o` of the stored matrix. -/
theorem outp_apply (h : FVec Ideal S2048x64 .f32) (w2 : Vec Ideal S64x16 .bf16) (p : Fin 64) (q : Fin 32) (o : Fin 16) :
    outp (F := Ideal) h w2 (ix3 p q o) = ∑ e : Fin 64, h (ix2 (row p q) e) * w2 (ix2 e o) := by
  unfold outp
  rw [FlattenRows.shapeCast_split2_apply _ shapeCasts_S2048x16_S64x32x16 p q o (row p q) (row_val p q), shapeCast_self]
  exact DenseBlock.matmul_zero_apply (K := 2048) (N := 64) (Q := 16) dot_S2048x64_S64x16_S2048x16_1_0_0_1_n_n_wf
    (truncf .bf16 h bitsLt_bf16_f32) w2 (row p q) o

/-- The output network on the divided mixture is, at `(p, q, o)`, the two dense layers with the rectifier between
    them on batch item `p` alone. -/
theorem head_apply (z c : FVec Ideal S64x32x256 .f32) (w1 : Vec Ideal S256x64 .bf16) (w2 : Vec Ideal S64x16 .bf16)
    (p : Fin 64) (q : Fin 32) (o : Fin 16) :
    outp (F := Ideal) (leaky (Stage.hidden (avgRows z c) w1)) w2 (ix3 p q o)
      = dense (fun n h => leak (dense (fun n d => Ideal.div (z (ix3 p n d)) (c (ix3 p n d))) (matT w1) n h)) (matT w2) q o := by
  rw [outp_apply]
  unfold dense
  refine Finset.sum_congr rfl fun e _ => ?_
  rw [leaky_apply, hidden_apply]
  refine congrArg (fun t => leak t * w2 (ix2 e o)) ?_
  exact Finset.sum_congr rfl fun d _ => by rw [avgRows_apply]; rfl

/-- The two inputs side by side: feature `d` of an agent is its observed number `d` below 240, else number `d − 240`
    of its action. -/
theorem cat_apply (v0 : Vec Ideal S64x32x240 .f32) (v1 : Vec Ideal S64x32x16 .f32) (b : Fin 64) (n : Fin 32) (d : Fin 256) :
    cat (F := Ideal) v0 v1 (ix3 b n d) = feat v0 v1 b n d := by
  unfold cat feat
  by_cases h : d.val < 240
  · rw [dif_pos h]
    exact concatenate_pair_apply_left (2 : Fin 3) v0 v1 concatenates_S64x32x240_S64x32x16_S64x32x256_d2 (ix3 b n d) rfl
      (ix3 b n ⟨d.val, h⟩) (fun a => by match a with | ⟨0, _⟩ => rfl | ⟨1, _⟩ => rfl | ⟨2, _⟩ => rfl)
  · rw [dif_neg h]
    exact concatenate_pair_apply_right (2 : Fin 3) v0 v1 concatenates_S64x32x240_S64x32x16_S64x32x256_d2 (ix3 b n d) rfl rfl
      (ix3 b n ⟨d.val - 240, by have := d.isLt; omega⟩)
      (fun a ha => by match a with | ⟨0, _⟩ => rfl | ⟨1, _⟩ => rfl | ⟨2, _⟩ => exact absurd rfl ha)
      (by show (d.val - 240) + 240 = d.val; omega)

end Cert.Attn.KernelDense

end
-- ==== Proof.LibBatchDot.lean ====
/-
  Batched products of arrays, read at an index.

  Three contractions of one axis, each over arrays whose first axis (where there is one on both sides) is a batch
  axis carried through: rows against rows within a batch item (`[B, M, D] · [B, N, D] → [B, M, N]`, entry
  `(b, i, j)` the inner product of row `i` of the left item `b` with row `j` of the right item `b`); a matrix
  against rows within a batch item (`[B, M, N] · [B, N, D] → [B, M, D]`, entry `(b, i, d)` the sum over `j` of
  `l (b, i, j) * r (b, j, d)`); and every row of every batch item against the rows of one weight matrix
  (`[B, M, D] · [K, D] → [B, M, K]`, entry `(b, n, k)` the inner product of row `(b, n)` with weight row `k`).
  For each, the dimension numbers as a record over any extents, the operand coordinates the record reads at a
  result index and a contraction position, and the contraction's sum re-indexed over the plain range of the
  contracted axis.
-/
import Idealize.ShloMosaic.Lib.ValueIdx
import Idealize.ShloMosaic.PureOps.Ideal.Laws

noncomputable section

open scoped BigOperators

namespace Idealize.ShloMosaic.BatchDot

open Idealize.ShloMosaic Idealize.ShloMosaic.ValueIdx

/-! ## Rows against rows within a batch item -/

/-- The dimension numbers of `[B, M, D] · [B, N, D] → [B, M, N]`: the first axes a batch axis, the last axes contracted. -/
abbrev pairDims (B M N D : ℕ)
    (wf : DotDims.WF ⟨3, ![B, M, D]⟩ ⟨3, ![B, N, D]⟩ ⟨3, ![B, M, N]⟩ [2] [2] [1] [1] [0] [0]) :
    DotDims ⟨3, ![B, M, D]⟩ ⟨3, ![B, N, D]⟩ ⟨3, ![B, M, N]⟩ where
  lhsContracting := [2]
  rhsContracting := [2]
  lhsNonContracting := [1]
  rhsNonContracting := [1]
  lhsBatch := [0]
  rhsBatch := [0]
  wf := wf

section
variable {B M N D : ℕ} (wf : DotDims.WF ⟨3, ![B, M, D]⟩ ⟨3, ![B, N, D]⟩ ⟨3, ![B, M, N]⟩ [2] [2] [1] [1] [0] [0])

/-- The left operand's batch item is the result's. -/
theorem pair_lhs0 (j : (⟨3, ![B, M, N]⟩ : Shape).Idx) (c : (pairDims B M N D wf).contr.Idx) :
    ((pairDims B M N D wf).lhsIdx j c (0 : Fin 3)).val = (j 0).val := by
  unfold DotDims.lhsIdx
  rw [dif_pos (show (0 : Fin 3) ∈ (pairDims B M N D wf).lhsBatch from List.mem_singleton.mpr rfl)]
  rfl

/-- The left operand's row is the result's second coordinate. -/
theorem pair_lhs1 (j : (⟨3, ![B, M, N]⟩ : Shape).Idx) (c : (pairDims B M N D wf).contr.Idx) :
    ((pairDims B M N D wf).lhsIdx j c (1 : Fin 3)).val = (j 1).val := by
  unfold DotDims.lhsIdx
  rw [dif_neg (show ¬ (1 : Fin 3) ∈ (pairDims B M N D wf).lhsBatch from (by decide : ¬ (1 : Fin 3) ∈ ([0] : List (Fin 3)))),
    dif_pos (show (1 : Fin 3) ∈ (pairDims B M N D wf).lhsNonContracting from List.mem_singleton.mpr rfl)]
  rfl

/-- The left operand's last coordinate is the contraction position. -/
theorem pair_lhs2 (j : (⟨3, ![B, M, N]⟩ : Shape).Idx) (c : (pairDims B M N D wf).contr.Idx) :
    ((pairDims B M N D wf).lhsIdx j c (2 : Fin 3)).val = (c ⟨0, Nat.one_pos⟩).val :=
  (pairDims B M N D wf).lhsIdx_val_of_single rfl j c

/-- The right operand's batch item is the result's. -/
theorem pair_rhs0 (j : (⟨3, ![B, M, N]⟩ : Shape).Idx) (c : (pairDims B M N D wf).contr.Idx) :
    ((pairDims B M N D wf).rhsIdx j c (0 : Fin 3)).val = (j 0).val := by
  unfold DotDims.rhsIdx
  rw [dif_pos (show (0 : Fin 3) ∈ (pairDims B M N D wf).rhsBatch from List.mem_singleton.mpr rfl)]
  rfl

/-- The right operand's row is the result's third coordinate. -/
theorem pair_rhs1 (j : (⟨3, ![B, M, N]⟩ : Shape).Idx) (c : (pairDims B M N D wf).contr.Idx) :
    ((pairDims B M N D wf).rhsIdx j c (1 : Fin 3)).val = (j 2).val := by
  unfold DotDims.rhsIdx
  rw [dif_neg (show ¬ (1 : Fin 3) ∈ (pairDims B M N D wf).rhsBatch from (by decide : ¬ (1 : Fin 3) ∈ ([0] : List (Fin 3)))),
    dif_pos (show (1 : Fin 3) ∈ (pairDims B M N D wf).rhsNonContracting from List.mem_singleton.mpr rfl)]
  rfl

/-- The right operand's last coordinate is the contraction position. -/
theorem pair_rhs2 (j : (⟨3, ![B, M, N]⟩ : Shape).Idx) (c : (pairDims B M N D wf).contr.Idx) :
    ((pairDims B M N D wf).rhsIdx j c (2 : Fin 3)).val = (c ⟨0, Nat.one_pos⟩).val :=
  (pairDims B M N D wf).rhsIdx_val_of_single rfl j c

/-- The contraction at `(b, i, j)` is the inner product of row `(b, i)` of the left with row `(b, j)` of the right. -/
theorem pair_sum (l : (⟨3, ![B, M, D]⟩ : Shape).Idx → EReal) (r : (⟨3, ![B, N, D]⟩ : Shape).Idx → EReal)
    (b : Fin B) (i : Fin M) (j : Fin N) :
    ∑ k : (pairDims B M N D wf).contr.Idx,
        l ((pairDims B M N D wf).lhsIdx (ix3 b i j) k) * r ((pairDims B M N D wf).rhsIdx (ix3 b i j) k)
      = ∑ e : Fin D, l (ix3 b i e) * r (ix3 b j e) := by
  rw [← Equiv.sum_comp (contrEquiv1 (pairDims B M N D wf) D rfl rfl).symm]
  refine Finset.sum_congr rfl fun e _ => ?_
  have he := contrEquiv1_symm_val (pairDims B M N D wf) D rfl rfl e
  have el : (pairDims B M N D wf).lhsIdx (ix3 b i j) ((contrEquiv1 (pairDims B M N D wf) D rfl rfl).symm e) = ix3 b i e :=
    funext fun a => Fin.ext (by
      match a with
      | ⟨0, _⟩ => exact pair_lhs0 wf _ _
      | ⟨1, _⟩ => exact pair_lhs1 wf _ _
      | ⟨2, _⟩ => exact (pair_lhs2 wf _ _).trans he)
  have er : (pairDims B M N D wf).rhsIdx (ix3 b i j) ((contrEquiv1 (pairDims B M N D wf) D rfl rfl).symm e) = ix3 b j e :=
    funext fun a => Fin.ext (by
      match a with
      | ⟨0, _⟩ => exact pair_rhs0 wf _ _
      | ⟨1, _⟩ => exact pair_rhs1 wf _ _
      | ⟨2, _⟩ => exact (pair_rhs2 wf _ _).trans he)
  rw [el, er]

end

/-! ## A matrix against rows within a batch item -/

/-- The dimension numbers of `[B, M, N] · [B, N, D] → [B, M, D]`: the first axes a batch axis, the left's last axis
    contracted with the right's middle one. -/
abbrev mixDims (B M N D : ℕ)
    (wf : DotDims.WF ⟨3, ![B, M, N]⟩ ⟨3, ![B, N, D]⟩ ⟨3, ![B, M, D]⟩ [2] [1] [1] [2] [0] [0]) :
    DotDims ⟨3, ![B, M, N]⟩ ⟨3, ![B, N, D]⟩ ⟨3, ![B, M, D]⟩ where
  lhsContracting := [2]
  rhsContracting := [1]
  lhsNonContracting := [1]
  rhsNonContracting := [2]
  lhsBatch := [0]
  rhsBatch := [0]
  wf := wf

section
variable {B M N D : ℕ} (wf : DotDims.WF ⟨3, ![B, M, N]⟩ ⟨3, ![B, N, D]⟩ ⟨3, ![B, M, D]⟩ [2] [1] [1] [2] [0] [0])

/-- The left operand's batch item is the result's. -/
theorem mix_lhs0 (j : (⟨3, ![B, M, D]⟩ : Shape).Idx) (c : (mixDims B M N D wf).contr.Idx) :
    ((mixDims B M N D wf).lhsIdx j c (0 : Fin 3)).val = (j 0).val := by
  unfold DotDims.lhsIdx
  rw [dif_pos (show (0 : Fin 3) ∈ (mixDims B M N D wf).lhsBatch from List.mem_singleton.mpr rfl)]
  rfl

/-- The left operand's row is the result's second coordinate. -/
theorem mix_lhs1 (j : (⟨3, ![B, M, D]⟩ : Shape).Idx) (c : (mixDims B M N D wf).contr.Idx) :
    ((mixDims B M N D wf).lhsIdx j c (1 : Fin 3)).val = (j 1).val := by
  unfold DotDims.lhsIdx
  rw [dif_neg (show ¬ (1 : Fin 3) ∈ (mixDims B M N D wf).lhsBatch from (by decide : ¬ (1 : Fin 3) ∈ ([0] : List (Fin 3)))),
    dif_pos (show (1 : Fin 3) ∈ (mixDims B M N D wf).lhsNonContracting from List.mem_singleton.mpr rfl)]
  rfl

/-- The left operand's last coordinate is the contraction position. -/
theorem mix_lhs2 (j : (⟨3, ![B, M, D]⟩ : Shape).Idx) (c : (mixDims B M N D wf).contr.Idx) :
    ((mixDims B M N D wf).lhsIdx j c (2 : Fin 3)).val = (c ⟨0, Nat.one_pos⟩).val :=
  (mixDims B M N D wf).lhsIdx_val_of_single rfl j c

/-- The right operand's batch item is the result's. -/
theorem mix_rhs0 (j : (⟨3, ![B, M, D]⟩ : Shape).Idx) (c : (mixDims B M N D wf).contr.Idx) :
    ((mixDims B M N D wf).rhsIdx j c (0 : Fin 3)).val = (j 0).val := by
  unfold DotDims.rhsIdx
  rw [dif_pos (show (0 : Fin 3) ∈ (mixDims B M N D wf).rhsBatch from List.mem_singleton.mpr rfl)]
  rfl

/-- The right operand's middle coordinate is the contraction position. -/
theorem mix_rhs1 (j : (⟨3, ![B, M, D]⟩ : Shape).Idx) (c : (mixDims B M N D wf).contr.Idx) :
    ((mixDims B M N D wf).rhsIdx j c (1 : Fin 3)).val = (c ⟨0, Nat.one_pos⟩).val :=
  (mixDims B M N D wf).rhsIdx_val_of_single rfl j c

/-- The right operand's last coordinate is the result's third coordinate. -/
theorem mix_rhs2 (j : (⟨3, ![B, M, D]⟩ : Shape).Idx) (c : (mixDims B M N D wf).contr.Idx) :
    ((mixDims B M N D wf).rhsIdx j c (2 : Fin 3)).val = (j 2).val := by
  unfold DotDims.rhsIdx
  rw [dif_neg (show ¬ (2 : Fin 3) ∈ (mixDims B M N D wf).rhsBatch from (by decide : ¬ (2 : Fin 3) ∈ ([0] : List (Fin 3)))),
    dif_pos (show (2 : Fin 3) ∈ (mixDims B M N D wf).rhsNonContracting from List.mem_singleton.mpr rfl)]
  rfl

/-- The contraction at `(b, i, d)` is the sum over `j` of `l (b, i, j) * r (b, j, d)`. -/
theorem mix_sum (l : (⟨3, ![B, M, N]⟩ : Shape).Idx → EReal) (r : (⟨3, ![B, N, D]⟩ : Shape).Idx → EReal)
    (b : Fin B) (i : Fin M) (d : Fin D) :
    ∑ k : (mixDims B M N D wf).contr.Idx,
        l ((mixDims B M N D wf).lhsIdx (ix3 b i d) k) * r ((mixDims B M N D wf).rhsIdx (ix3 b i d) k)
      = ∑ j : Fin N, l (ix3 b i j) * r (ix3 b j d) := by
  rw [← Equiv.sum_comp (contrEquiv1 (mixDims B M N D wf) N rfl rfl).symm]
  refine Finset.sum_congr rfl fun e _ => ?_
  have he := contrEquiv1_symm_val (mixDims B M N D wf) N rfl rfl e
  have el : (mixDims B M N D wf).lhsIdx (ix3 b i d) ((contrEquiv1 (mixDims B M N D wf) N rfl rfl).symm e) = ix3 b i e :=
    funext fun a => Fin.ext (by
      match a with
      | ⟨0, _⟩ => exact mix_lhs0 wf _ _
      | ⟨1, _⟩ => exact mix_lhs1 wf _ _
      | ⟨2, _⟩ => exact (mix_lhs2 wf _ _).trans he)
  have er : (mixDims B M N D wf).rhsIdx (ix3 b i d) ((contrEquiv1 (mixDims B M N D wf) N rfl rfl).symm e) = ix3 b e d :=
    funext fun a => Fin.ext (by
      match a with
      | ⟨0, _⟩ => exact mix_rhs0 wf _ _
      | ⟨1, _⟩ => exact (mix_rhs1 wf _ _).trans he
      | ⟨2, _⟩ => exact mix_rhs2 wf _ _)
  rw [el, er]

end

/-! ## Every row against the rows of one weight matrix -/

/-- The dimension numbers of `[B, M, D] · [K, D] → [B, M, K]`: no batch axis, the last axes contracted. -/
abbrev rowsDims (B M D K : ℕ)
    (wf : DotDims.WF ⟨3, ![B, M, D]⟩ ⟨2, ![K, D]⟩ ⟨3, ![B, M, K]⟩ [2] [1] [0, 1] [0] [] []) :
    DotDims ⟨3, ![B, M, D]⟩ ⟨2, ![K, D]⟩ ⟨3, ![B, M, K]⟩ where
  lhsContracting := [2]
  rhsContracting := [1]
  lhsNonContracting := [0, 1]
  rhsNonContracting := [0]
  lhsBatch := []
  rhsBatch := []
  wf := wf

section
variable {B M D K : ℕ} (wf : DotDims.WF ⟨3, ![B, M, D]⟩ ⟨2, ![K, D]⟩ ⟨3, ![B, M, K]⟩ [2] [1] [0, 1] [0] [] [])

/-- The left operand's first coordinate is the result's. -/
theorem rows_lhs0 (j : (⟨3, ![B, M, K]⟩ : Shape).Idx) (c : (rowsDims B M D K wf).contr.Idx) :
    ((rowsDims B M D K wf).lhsIdx j c (0 : Fin 3)).val = (j 0).val := by
  unfold DotDims.lhsIdx
  rw [dif_neg (show ¬ (0 : Fin 3) ∈ (rowsDims B M D K wf).lhsBatch from List.not_mem_nil),
    dif_pos (show (0 : Fin 3) ∈ (rowsDims B M D K wf).lhsNonContracting from (by decide : (0 : Fin 3) ∈ ([0, 1] : List (Fin 3))))]
  rfl

/-- The left operand's second coordinate is the result's. -/
theorem rows_lhs1 (j : (⟨3, ![B, M, K]⟩ : Shape).Idx) (c : (rowsDims B M D K wf).contr.Idx) :
    ((rowsDims B M D K wf).lhsIdx j c (1 : Fin 3)).val = (j 1).val := by
  unfold DotDims.lhsIdx
  rw [dif_neg (show ¬ (1 : Fin 3) ∈ (rowsDims B M D K wf).lhsBatch from List.not_mem_nil),
    dif_pos (show (1 : Fin 3) ∈ (rowsDims B M D K wf).lhsNonContracting from (by decide : (1 : Fin 3) ∈ ([0, 1] : List (Fin 3))))]
  rfl

/-- The left operand's last coordinate is the contraction position. -/
theorem rows_lhs2 (j : (⟨3, ![B, M, K]⟩ : Shape).Idx) (c : (rowsDims B M D K wf).contr.Idx) :
    ((rowsDims B M D K wf).lhsIdx j c (2 : Fin 3)).val = (c ⟨0, Nat.one_pos⟩).val :=
  (rowsDims B M D K wf).lhsIdx_val_of_single rfl j c

/-- The weight matrix's row is the result's third coordinate. -/
theorem rows_rhs0 (j : (⟨3, ![B, M, K]⟩ : Shape).Idx) (c : (rowsDims B M D K wf).contr.Idx) :
    ((rowsDims B M D K wf).rhsIdx j c (0 : Fin 2)).val = (j 2).val := by
  unfold DotDims.rhsIdx
  rw [dif_neg (show ¬ (0 : Fin 2) ∈ (rowsDims B M D K wf).rhsBatch from List.not_mem_nil),
    dif_pos (show (0 : Fin 2) ∈ (rowsDims B M D K wf).rhsNonContracting from List.mem_singleton.mpr rfl)]
  rfl

/-- The weight matrix's column is the contraction position. -/
theorem rows_rhs1 (j : (⟨3, ![B, M, K]⟩ : Shape).Idx) (c : (rowsDims B M D K wf).contr.Idx) :
    ((rowsDims B M D K wf).rhsIdx j c (1 : Fin 2)).val = (c ⟨0, Nat.one_pos⟩).val :=
  (rowsDims B M D K wf).rhsIdx_val_of_single rfl j c

/-- The contraction at `(b, n, k)` is the inner product of row `(b, n)` with weight row `k`. -/
theorem rows_sum (l : (⟨3, ![B, M, D]⟩ : Shape).Idx → EReal) (r : (⟨2, ![K, D]⟩ : Shape).Idx → EReal)
    (b : Fin B) (n : Fin M) (k : Fin K) :
    ∑ c : (rowsDims B M D K wf).contr.Idx,
        l ((rowsDims B M D K wf).lhsIdx (ix3 b n k) c) * r ((rowsDims B M D K wf).rhsIdx (ix3 b n k) c)
      = ∑ d : Fin D, l (ix3 b n d) * r (ix2 k d) := by
  rw [← Equiv.sum_comp (contrEquiv1 (rowsDims B M D K wf) D rfl rfl).symm]
  refine Finset.sum_congr rfl fun e _ => ?_
  have he := contrEquiv1_symm_val (rowsDims B M D K wf) D rfl rfl e
  have el : (rowsDims B M D K wf).lhsIdx (ix3 b n k) ((contrEquiv1 (rowsDims B M D K wf) D rfl rfl).symm e) = ix3 b n e :=
    funext fun a => Fin.ext (by
      match a with
      | ⟨0, _⟩ => exact rows_lhs0 wf _ _
      | ⟨1, _⟩ => exact rows_lhs1 wf _ _
      | ⟨2, _⟩ => exact (rows_lhs2 wf _ _).trans he)
  have er : (rowsDims B M D K wf).rhsIdx (ix3 b n k) ((contrEquiv1 (rowsDims B M D K wf) D rfl rfl).symm e) = ix2 k e :=
    funext fun a => Fin.ext (by
      match a with
      | ⟨0, _⟩ => exact rows_rhs0 wf _ _
      | ⟨1, _⟩ => exact (rows_rhs1 wf _ _).trans he)
  rw [el, er]

end

end Idealize.ShloMosaic.BatchDot

end
-- ==== Proof.KernelAttn.lean ====
/-
  The kernel's attention stages, and its two stored values, read at an index over the extended reals.

  Within batch item `b` of a block the score of row `i` against row `j` is the inner product of key `i` with query `j`
  times one sixteenth, and the mixture at `(i, d)` is the sum over `j` of weight `(i, j)` times value `(j, d)`: no sum
  crosses batch items.  With the dense stages and the softmax read the same way, the stored attention weights and the
  stored advantages of a block are the specification's functions of the block's own inputs.
-/
import proofs.«172909_j61976378081551_1_alg».proof.Proof.KernelDense
import proofs.«172909_j61976378081551_1_alg».proof.Proof.LibBatchDot

noncomputable section

namespace Cert.Attn.KernelAttn

open Cert.KernelIdeal Cert.KernelIdeal.Gen Idealize.ShloMosaic Idealize.ShloMosaic.ValueIdx
open Cert.KernelIdeal.Stage Cert.Attn.KernelDense

/-- The softmax stage read at an index (proved where the reductions are read; taken here as a hypothesis). -/
def SoftRead : Prop :=
  ∀ (s : FVec Ideal S64x32x32 .f32) (b : Fin 64) (i j : Fin 32),
    Stage.soft (F := Ideal) s (ix3 b i j) = softRow (fun j' : Fin 32 => s (ix3 b i j')) j

/-- The score of key row `i` against query row `j` of batch item `b`. -/
theorem score_apply (K Q : FVec Ideal S64x32x256 .f32) (b : Fin 64) (i j : Fin 32) :
    score (F := Ideal) K Q (ix3 b i j) = (∑ d : Fin 256, K (ix3 b i d) * Q (ix3 b j d)) * scale := by
  unfold score
  refine congrArg (· * scale) ?_
  exact (Ideal.matmul_constant_zero_apply _ none _ _ (ix3 b i j)).trans
    (BatchDot.pair_sum dot_S64x32x256_S64x32x256_S64x32x32_2_2_1_1_0_0_wf (truncf .bf16 K bitsLt_bf16_f32)
      (truncf .bf16 Q bitsLt_bf16_f32) b i j)

/-- The mixture of the value rows of batch item `b` by row `i` of its weights. -/
theorem mix_apply (w : FVec Ideal S64x32x32 .f32) (V : FVec Ideal S64x32x256 .f32) (b : Fin 64) (i : Fin 32) (d : Fin 256) :
    mix (F := Ideal) w V (ix3 b i d) = ∑ j : Fin 32, w (ix3 b i j) * V (ix3 b j d) := by
  unfold mix
  exact (Ideal.matmul_constant_zero_apply _ none _ _ (ix3 b i d)).trans
    (BatchDot.mix_sum dot_S64x32x32_S64x32x256_S64x32x256_2_1_1_2_0_0_wf (truncf .bf16 w bitsLt_bf16_f32)
      (truncf .bf16 V bitsLt_bf16_f32) b i d)

/-- The features of one batch item of a block, as the specification names them. -/
theorem cat_item (x0 : Vec Ideal S64x32x240 .f32) (x1 : Vec Ideal S64x32x16 .f32) (b : Fin 64) :
    (fun (n : Fin 32) (d : Fin 256) => cat (F := Ideal) x0 x1 (ix3 b n d)) = feat x0 x1 b :=
  funext fun n => funext fun d => cat_apply x0 x1 b n d

/-- The stored attention weights of a block are the specification's weights of the block's inputs. -/
theorem weights_apply (hs : SoftRead) (x0 : Vec Ideal S64x32x240 .f32) (x1 : Vec Ideal S64x32x16 .f32)
    (x2 x3 : Vec Ideal S256x256 .bf16) (b : Fin 64) (i j : Fin 32) :
    k0_pay4 (F := Ideal) x0 x1 x2 x3 (ix3 b i j) = wArr x0 x1 (matT x2) (matT x3) b i j := by
  rw [pay4_eq, hs]
  unfold wArr weightsOf
  refine congrArg (fun s => softRow s j) (funext fun j' => ?_)
  rw [score_apply]
  unfold scores
  refine congrArg (· * scale) (Finset.sum_congr rfl fun d _ => ?_)
  rw [proj_rows_apply, proj_rows_apply, cat_item]

/-- The stored advantages of a block are the specification's advantages of the block's inputs. -/
theorem adv_apply (hs : SoftRead) (x0 : Vec Ideal S64x32x240 .f32) (x1 : Vec Ideal S64x32x16 .f32)
    (x2 x3 x4 : Vec Ideal S256x256 .bf16) (x5 : Vec Ideal S256x64 .bf16) (x6 : Vec Ideal S64x16 .bf16)
    (b : Fin 64) (n : Fin 32) (o : Fin 16) :
    k0_pay1 (F := Ideal) (k0_pay5 x0 x1 x2 x3 x4) k0_pay6 x5 x6 (ix3 b n o)
      = advArr x0 x1 (matT x2) (matT x3) (matT x4) (matT x5) (matT x6) b n o := by
  rw [pay1_eq, head_apply]
  unfold advArr advOf
  have hz : (fun (n : Fin 32) (d : Fin 256) =>
        Ideal.div (k0_pay5 (F := Ideal) x0 x1 x2 x3 x4 (ix3 b n d)) (k0_pay6 (F := Ideal) (ix3 b n d)))
      = mixed (weightsOf (feat x0 x1 b) (matT x2) (matT x3)) (dense (feat x0 x1 b) (matT x4)) := by
    funext n d
    unfold mixed
    rw [pay5_eq, mix_apply, pay6_eq]
    refine congrArg (fun t => Ideal.div t agents) (Finset.sum_congr rfl fun j _ => ?_)
    rw [weights_apply hs, proj_rows_apply, cat_item]
    rfl
  rw [hz]

end Cert.Attn.KernelAttn

end
-- ==== Proof.AttnArrays.lean ====
/-
  The two results as functions of the seven argument arrays, on all 4096 batch items, and a block of 64 items of them.

  The kernel visits the batch in 64 blocks of 64 items: item `b` of block `T` is item `T · 64 + b` of the array.
  Since no operation mixes batch items, what the specification gives for an item of a block, from the block's slices of
  the inputs, is what it gives for that item of the array.
-/
import proofs.«172909_j61976378081551_1_alg».proof.Proof.AttnSpec

noncomputable section

namespace Cert.Attn

open Idealize.ShloMosaic Idealize.ShloMosaic.ValueIdx

/-- Item `b` of block `T` among the 4096 batch items. -/
def item (T : Fin 64) (b : Fin 64) : Fin 4096 := ⟨T.val * 64 + b.val, by have := T.isLt; have := b.isLt; omega⟩

theorem item_val (T b : Fin 64) : (item T b).val = T.val * 64 + b.val := rfl

/-- The advantages of all 4096 items, as an array indexed by item, agent and output. -/
def advFn (a0 : (⟨3, ![4096, 32, 240]⟩ : Shape).Idx → EReal) (a1 : (⟨3, ![4096, 32, 16]⟩ : Shape).Idx → EReal)
    (Wk Wq Wv : (⟨2, ![256, 256]⟩ : Shape).Idx → EReal) (W1 : (⟨2, ![64, 256]⟩ : Shape).Idx → EReal)
    (W2 : (⟨2, ![16, 64]⟩ : Shape).Idx → EReal) : (⟨3, ![4096, 32, 16]⟩ : Shape).Idx → EReal :=
  fun i => advArr a0 a1 (mat Wk) (mat Wq) (mat Wv) (mat W1) (mat W2) (i 0) (i 1) (i 2)

/-- The attention weights of all 4096 items, as an array with a trailing axis of length one. -/
def wFn (a0 : (⟨3, ![4096, 32, 240]⟩ : Shape).Idx → EReal) (a1 : (⟨3, ![4096, 32, 16]⟩ : Shape).Idx → EReal)
    (Wk Wq : (⟨2, ![256, 256]⟩ : Shape).Idx → EReal) : (⟨4, ![4096, 32, 32, 1]⟩ : Shape).Idx → EReal :=
  fun i => wArr a0 a1 (mat Wk) (mat Wq) (i 0) (i 1) (i 2)

/-- The features of an item of a block, from the block's slices, are the features of that item of the array. -/
theorem feat_block (x0 : (⟨3, ![64, 32, 240]⟩ : Shape).Idx → EReal) (x1 : (⟨3, ![64, 32, 16]⟩ : Shape).Idx → EReal)
    (a0 : (⟨3, ![4096, 32, 240]⟩ : Shape).Idx → EReal) (a1 : (⟨3, ![4096, 32, 16]⟩ : Shape).Idx → EReal) (T : Fin 64)
    (h0 : ∀ (b : Fin 64) (n : Fin 32) (d : Fin 240), x0 (ix3 b n d) = a0 (ix3 (item T b) n d))
    (h1 : ∀ (b : Fin 64) (n : Fin 32) (d : Fin 16), x1 (ix3 b n d) = a1 (ix3 (item T b) n d)) (b : Fin 64) :
    feat x0 x1 b = feat a0 a1 (item T b) := by
  funext n d
  unfold feat
  by_cases h : d.val < 240
  · rw [dif_pos h, dif_pos h, h0]
  · rw [dif_neg h, dif_neg h, h1]

end Cert.Attn

end
-- ==== Proof.KernelArray.lean ====
/-
  From the blocks to the whole arrays.

  At grid point `t` the kernel is handed batch items `64 t … 64 t + 63` of the two inputs and the five weight matrices
  whole, each transposed beforehand; it writes back block `t` of the advantages and of the attention weights.  What it
  writes is the specification's function of its block's inputs, hence block `t` of the specification's function of the
  whole arrays; the 64 blocks cover all 4096 items, so after the run each output array is that function.
-/
import proofs.«172909_j61976378081551_1_alg».proof.Proof.Gen.KernelIdeal.Value
import proofs.«172909_j61976378081551_1_alg».proof.Proof.KernelAttn
import proofs.«172909_j61976378081551_1_alg».proof.Proof.AttnArrays
import Idealize.ShloMosaic.Lib.StableHlo.Run
import Idealize.ShloMosaic.Lib.ValueLayout

noncomputable section

namespace Cert.Attn.KernelArray

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Attn.KernelAttn

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Grid point `t` as a block number. -/
def blockOf (t : Fin cfg0.N) : Fin 64 := ⟨t.val, lt_of_lt_of_eq t.isLt N_0⟩

theorem blockOf_val (t : Fin cfg0.N) : (blockOf t).val = t.val := rfl

/-! ## The index maps, decided over the 64 grid points -/

/-- The two inputs' and the two outputs' blocks move along the batch axis with the point. -/
theorem idx_batch : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_7.index t (0 : Fin 3) = t.val ∧ win0_7.index t (1 : Fin 3) = 0 ∧ win0_7.index t (2 : Fin 3) = 0
    ∧ win0_8.index t (0 : Fin 4) = t.val ∧ win0_8.index t (1 : Fin 4) = 0 ∧ win0_8.index t (2 : Fin 4) = 0
    ∧ win0_8.index t (3 : Fin 4) = 0 :=
  (by decide +kernel : ∀ t : Fin grid0.N, _)

/-- The weight matrices are handed over whole at every point. -/
theorem idx_weights : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks the body reads -/

/-- Block `t` of the states holds batch items `64 t … 64 t + 63`. -/
theorem states_block (c : Dev nD) (t : Fin cfg0.N) (b : Fin 64) (n : Fin 32) (d : Fin 240) :
    iblk m c 0 t (ix3 b n d) = (m ((c : Thread nD τ).loc main_arg0)) (ix3 (item (blockOf t) b) n d) := by
  obtain ⟨e0, e1, e2, -⟩ := idx_batch t
  rw [← V_main_arg0 m c]
  show V m c main_arg0 (((cfg0.win 0).blk t).view.emb (ix3 b n d)) = V m c main_arg0 (ix3 (item (blockOf t) b) n d)
  refine congrArg (V m c main_arg0) (funext fun a => Fin.ext ?_)
  match a with
  | ⟨0, _⟩ => show win0_0.index t (0 : Fin 3) * 64 + 1 * b.val = t.val * 64 + b.val; rw [e0]; omega
  | ⟨1, _⟩ => show win0_0.index t (1 : Fin 3) * 32 + 1 * n.val = n.val; rw [e1]; omega
  | ⟨2, _⟩ => show win0_0.index t (2 : Fin 3) * 240 + 1 * d.val = d.val; rw [e2]; omega

/-- Block `t` of the actions holds the same batch items. -/
theorem actions_block (c : Dev nD) (t : Fin cfg0.N) (b : Fin 64) (n : Fin 32) (d : Fin 16) :
    iblk m c 1 t (ix3 b n d) = (m ((c : Thread nD τ).loc main_arg1)) (ix3 (item (blockOf t) b) n d) := by
  obtain ⟨-, -, -, e0, e1, e2, -⟩ := idx_batch t
  rw [← V_main_arg1 m c]
  show V m c main_arg1 (((cfg0.win 1).blk t).view.emb (ix3 b n d)) = V m c main_arg1 (ix3 (item (blockOf t) b) n d)
  refine congrArg (V m c main_arg1) (funext fun a => Fin.ext ?_)
  match a with
  | ⟨0, _⟩ => show win0_1.index t (0 : Fin 3) * 64 + 1 * b.val = t.val * 64 + b.val; rw [e0]; omega
  | ⟨1, _⟩ => show win0_1.index t (1 : Fin 3) * 32 + 1 * n.val = n.val; rw [e1]; omega
  | ⟨2, _⟩ => show win0_1.index t (2 : Fin 3) * 16 + 1 * d.val = d.val; rw [e2]; omega

/-- What the region finds in the buffer of the transposed key weights. -/
theorem V_keys (c : Dev nD) : @Eq (FVec Ideal S256x256 .bf16) (V m c main_v1)
      (truncf .bf16 (transpose S256x256 [1, 0] (m ((c : Thread nD τ).loc main_arg2) : FVec Ideal S256x256 .f32) transposes_S256x256_S256x256_1_0) bitsLt_bf16_f32) := by
  dsimp only [Gen.V, Gen.hostOps0]; after_results

/-- … of the transposed query weights. -/
theorem V_queries (c : Dev nD) : @Eq (FVec Ideal S256x256 .bf16) (V m c main_v3)
      (truncf .bf16 (transpose S256x256 [1, 0] (m ((c : Thread nD τ).loc main_arg3) : FVec Ideal S256x256 .f32) transposes_S256x256_S256x256_1_0) bitsLt_bf16_f32) := by
  dsimp only [Gen.V, Gen.hostOps0]; after_results

/-- … of the transposed value weights. -/
theorem V_values (c : Dev nD) : @Eq (FVec Ideal S256x256 .bf16) (V m c main_v5)
      (truncf .bf16 (transpose S256x256 [1, 0] (m ((c : Thread nD τ).loc main_arg4) : FVec Ideal S256x256 .f32) transposes_S256x256_S256x256_1_0) bitsLt_bf16_f32) := by
  dsimp only [Gen.V, Gen.hostOps0]; after_results

/-- … of the transposed first output layer. -/
theorem V_layer1 (c : Dev nD) : @Eq (FVec Ideal S256x64 .bf16) (V m c main_v7)
      (truncf .bf16 (transpose S256x64 [1, 0] (m ((c : Thread nD τ).loc main_arg5) : FVec Ideal S64x256 .f32) transposes_S64x256_S256x64_1_0) bitsLt_bf16_f32) := by
  dsimp only [Gen.V, Gen.hostOps0]; after_results

/-- … of the transposed second output layer. -/
theorem V_layer2 (c : Dev nD) : @Eq (FVec Ideal S64x16 .bf16) (V m c main_v9)
      (truncf .bf16 (transpose S64x16 [1, 0] (m ((c : Thread nD τ).loc main_arg6) : FVec Ideal S16x64 .f32) transposes_S16x64_S64x16_1_0) bitsLt_bf16_f32) := by
  dsimp only [Gen.V, Gen.hostOps0]; after_results

/-- The key weights as the body reads them: entry `(d, k)` of its block is entry `(k, d)` of the argument. -/
theorem keys_block (c : Dev nD) (t : Fin cfg0.N) (d k : Fin 256) :
    iblk m c 2 t (ix2 d k) = (m ((c : Thread nD τ).loc main_arg2)) (ix2 k d) := by
  obtain ⟨e0, e1, -⟩ := idx_weights t
  show V m c main_v1 (((cfg0.win 2).blk t).view.emb (ix2 d k)) = _
  have he : ((cfg0.win 2).blk t).view.emb (ix2 d k) = ix2 d k := funext fun a => Fin.ext (by
    match a with
    | ⟨0, _⟩ => show win0_2.index t (0 : Fin 2) * 256 + 1 * d.val = d.val; rw [e0]; omega
    | ⟨1, _⟩ => show win0_2.index t (1 : Fin 2) * 256 + 1 * k.val = k.val; rw [e1]; omega)
  rw [he, V_keys]
  exact transpose_ix2_apply (m ((c : Thread nD τ).loc main_arg2)) transposes_S256x256_S256x256_1_0 d k

theorem queries_block (c : Dev nD) (t : Fin cfg0.N) (d k : Fin 256) :
    iblk m c 3 t (ix2 d k) = (m ((c : Thread nD τ).loc main_arg3)) (ix2 k d) := by
  obtain ⟨-, -, e0, e1, -⟩ := idx_weights t
  show V m c main_v3 (((cfg0.win 3).blk t).view.emb (ix2 d k)) = _
  have he : ((cfg0.win 3).blk t).view.emb (ix2 d k) = ix2 d k := funext fun a => Fin.ext (by
    match a with
    | ⟨0, _⟩ => show win0_3.index t (0 : Fin 2) * 256 + 1 * d.val = d.val; rw [e0]; omega
    | ⟨1, _⟩ => show win0_3.index t (1 : Fin 2) * 256 + 1 * k.val = k.val; rw [e1]; omega)
  rw [he, V_queries]
  exact transpose_ix2_apply (m ((c : Thread nD τ).loc main_arg3)) transposes_S256x256_S256x256_1_0 d k

theorem values_block (c : Dev nD) (t : Fin cfg0.N) (d k : Fin 256) :
    iblk m c 4 t (ix2 d k) = (m ((c : Thread nD τ).loc main_arg4)) (ix2 k d) := by
  obtain ⟨-, -, -, -, e0, e1, -⟩ := idx_weights t
  show V m c main_v5 (((cfg0.win 4).blk t).view.emb (ix2 d k)) = _
  have he : ((cfg0.win 4).blk t).view.emb (ix2 d k) = ix2 d k := funext fun a => Fin.ext (by
    match a with
    | ⟨0, _⟩ => show win0_4.index t (0 : Fin 2) * 256 + 1 * d.val = d.val; rw [e0]; omega
    | ⟨1, _⟩ => show win0_4.index t (1 : Fin 2) * 256 + 1 * k.val = k.val; rw [e1]; omega)
  rw [he, V_values]
  exact transpose_ix2_apply (m ((c : Thread nD τ).loc main_arg4)) transposes_S256x256_S256x256_1_0 d k

theorem layer1_block (c : Dev nD) (t : Fin cfg0.N) (d : Fin 256) (h : Fin 64) :
    iblk m c 5 t (ix2 d h) = (m ((c : Thread nD τ).loc main_arg5)) (ix2 h d) := by
  obtain ⟨-, -, -, -, -, -, e0, e1, -⟩ := idx_weights t
  show V m c main_v7 (((cfg0.win 5).blk t).view.emb (ix2 d h)) = _
  have he : ((cfg0.win 5).blk t).view.emb (ix2 d h) = ix2 d h := funext fun a => Fin.ext (by
    match a with
    | ⟨0, _⟩ => show win0_5.index t (0 : Fin 2) * 256 + 1 * d.val = d.val; rw [e0]; omega
    | ⟨1, _⟩ => show win0_5.index t (1 : Fin 2) * 64 + 1 * h.val = h.val; rw [e1]; omega)
  rw [he, V_layer1]
  exact transpose_ix2_apply (m ((c : Thread nD τ).loc main_arg5)) transposes_S64x256_S256x64_1_0 d h

theorem layer2_block (c : Dev nD) (t : Fin cfg0.N) (e : Fin 64) (o : Fin 16) :
    iblk m c 6 t (ix2 e o) = (m ((c : Thread nD τ).loc main_arg6)) (ix2 o e) := by
  obtain ⟨-, -, -, -, -, -, -, -, e0, e1⟩ := idx_weights t
  show V m c main_v9 (((cfg0.win 6).blk t).view.emb (ix2 e o)) = _
  have he : ((cfg0.win 6).blk t).view.emb (ix2 e o) = ix2 e o := funext fun a => Fin.ext (by
    match a with
    | ⟨0, _⟩ => show win0_6.index t (0 : Fin 2) * 64 + 1 * e.val = e.val; rw [e0]; omega
    | ⟨1, _⟩ => show win0_6.index t (1 : Fin 2) * 16 + 1 * o.val = o.val; rw [e1]; omega)
  rw [he, V_layer2]
  exact transpose_ix2_apply (m ((c : Thread nD τ).loc main_arg6)) transposes_S16x64_S64x16_1_0 e o

/-! ## What a point writes back -/

/-- An entry of block `t` of the advantages sits at batch item `64 t + b` of the array. -/
theorem adv_emb (t : Fin cfg0.N) (b : Fin 64) (n : Fin 32) (o : Fin 16) :
    ((cfg0.win 7).blk t).view.emb (ix3 b n o) = ix3 (item (blockOf t) b) n o := by
  obtain ⟨-, -, -, -, -, -, e0, e1, e2, -⟩ := idx_batch t
  refine funext fun a => Fin.ext ?_
  match a with
  | ⟨0, _⟩ => show win0_7.index t (0 : Fin 3) * 64 + 1 * b.val = t.val * 64 + b.val; rw [e0]; omega
  | ⟨1, _⟩ => show win0_7.index t (1 : Fin 3) * 32 + 1 * n.val = n.val; rw [e1]; omega
  | ⟨2, _⟩ => show win0_7.index t (2 : Fin 3) * 16 + 1 * o.val = o.val; rw [e2]; omega

/-- An entry of block `t` of the attention weights sits at batch item `64 t + b` of the array. -/
theorem w_emb (t : Fin cfg0.N) (b : Fin 64) (i j : Fin 32) (u : Fin 1) :
    ((cfg0.win 8).blk t).view.emb (ix4 b i j u) = ix4 (item (blockOf t) b) i j u := by
  obtain ⟨-, -, -, -, -, -, -, -, -, e0, e1, e2, e3⟩ := idx_batch t
  refine funext fun a => Fin.ext ?_
  match a with
  | ⟨0, _⟩ => show win0_8.index t (0 : Fin 4) * 64 + 1 * b.val = t.val * 64 + b.val; rw [e0]; omega
  | ⟨1, _⟩ => show win0_8.index t (1 : Fin 4) * 32 + 1 * i.val = i.val; rw [e1]; omega
  | ⟨2, _⟩ => show win0_8.index t (2 : Fin 4) * 32 + 1 * j.val = j.val; rw [e2]; omega
  | ⟨3, _⟩ => show win0_8.index t (3 : Fin 4) * 1 + 1 * u.val = u.val; rw [e3]; omega

/-- The weight matrices as the body reads them at point `t`, named as the specification names them. -/
theorem keys_mat (c : Dev nD) (t : Fin cfg0.N) : matT (iblk m c 2 t) = mat (m ((c : Thread nD τ).loc main_arg2)) :=
  funext fun k => funext fun d => keys_block m c t d k
theorem queries_mat (c : Dev nD) (t : Fin cfg0.N) : matT (iblk m c 3 t) = mat (m ((c : Thread nD τ).loc main_arg3)) :=
  funext fun k => funext fun d => queries_block m c t d k
theorem values_mat (c : Dev nD) (t : Fin cfg0.N) : matT (iblk m c 4 t) = mat (m ((c : Thread nD τ).loc main_arg4)) :=
  funext fun k => funext fun d => values_block m c t d k
theorem layer1_mat (c : Dev nD) (t : Fin cfg0.N) : matT (iblk m c 5 t) = mat (m ((c : Thread nD τ).loc main_arg5)) :=
  funext fun h => funext fun d => layer1_block m c t d h
theorem layer2_mat (c : Dev nD) (t : Fin cfg0.N) : matT (iblk m c 6 t) = mat (m ((c : Thread nD τ).loc main_arg6)) :=
  funext fun o => funext fun e => layer2_block m c t e o

/-- The features of item `b` of block `t` are the features of item `64 t + b` of the arrays. -/
theorem feat_point (c : Dev nD) (t : Fin cfg0.N) (b : Fin 64) :
    feat (iblk m c 0 t) (iblk m c 1 t) b = feat (m ((c : Thread nD τ).loc main_arg0)) (m ((c : Thread nD τ).loc main_arg1)) (item (blockOf t) b) :=
  feat_block (iblk m c 0 t) (iblk m c 1 t) (m ((c : Thread nD τ).loc main_arg0)) (m ((c : Thread nD τ).loc main_arg1)) (blockOf t)
    (states_block m c t) (actions_block m c t) b

/-- WHAT POINT `t` WRITES BACK to the advantages is block `t` of the specification's array. -/
theorem flushed_adv (hs : SoftRead) (c : Dev nD) (t : Fin cfg0.N) :
    (dats m 0 c).flushed 7 t = ((cfg0.win 7).blk t).view.read (Elt Ideal) (advFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [flushed7]
  unfold out0_7
  rw [View.canon_unit_zero hz3]
  simp only [View.ld_unit_zero (S := S64x32x240) hz3, View.ld_unit_zero (S := S64x32x16) hz3,
    View.ld_unit_zero (S := S256x256) hz2, View.ld_unit_zero (S := S256x64) hz2, View.ld_unit_zero (S := S64x16) hz2]
  funext y
  obtain ⟨b, n, o, rfl⟩ : ∃ (b : Fin 64) (n : Fin 32) (o : Fin 16), y = ix3 b n o := ⟨y 0, y 1, y 2, eq_ix3 y⟩
  show k0_pay1 (F := Ideal) (k0_pay5 (iblk m c 0 t) (iblk m c 1 t) (iblk m c 2 t) (iblk m c 3 t) (iblk m c 4 t)) k0_pay6 (iblk m c 5 t) (iblk m c 6 t) (ix3 b n o)
    = advFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix3 b n o))
  rw [adv_emb t b n o, adv_apply hs (iblk m c 0 t) (iblk m c 1 t) (iblk m c 2 t) (iblk m c 3 t) (iblk m c 4 t) (iblk m c 5 t) (iblk m c 6 t) b n o]
  show advArr (iblk m c 0 t) (iblk m c 1 t) (matT (iblk m c 2 t)) (matT (iblk m c 3 t)) (matT (iblk m c 4 t)) (matT (iblk m c 5 t)) (matT (iblk m c 6 t)) b n o
    = advArr (m ((c : Thread nD τ).loc main_arg0)) (m ((c : Thread nD τ).loc main_arg1)) (mat (m ((c : Thread nD τ).loc main_arg2))) (mat (m ((c : Thread nD τ).loc main_arg3))) (mat (m ((c : Thread nD τ).loc main_arg4))) (mat (m ((c : Thread nD τ).loc main_arg5))) (mat (m ((c : Thread nD τ).loc main_arg6))) (item (blockOf t) b) n o
  unfold advArr
  rw [feat_point m c t b, keys_mat m c t, queries_mat m c t, values_mat m c t, layer1_mat m c t, layer2_mat m c t]

/-- WHAT POINT `t` WRITES BACK to the attention weights is block `t` of the specification's array. -/
theorem flushed_w (hs : SoftRead) (c : Dev nD) (t : Fin cfg0.N) :
    (dats m 0 c).flushed 8 t = ((cfg0.win 8).blk t).view.read (Elt Ideal) (wFn (m ((c : Thread nD τ).loc main_arg0)) (m ((c : Thread nD τ).loc main_arg1)) (m ((c : Thread nD τ).loc main_arg2)) (m ((c : Thread nD τ).loc main_arg3))) := by
  rw [flushed8]
  unfold out0_8
  simp only [View.ld_unit_zero (S := S64x32x240) hz3, View.ld_unit_zero (S := S64x32x16) hz3,
    View.ld_unit_zero (S := S256x256) hz2]
  funext y
  obtain ⟨b, i, j, u, rfl⟩ : ∃ (b : Fin 64) (i j : Fin 32) (u : Fin 1), y = ix4 b i j u := ⟨y 0, y 1, y 2, y 3, eq_ix4 y⟩
  show View.canon [(⟨r0_5, k0_pay2 (F := Ideal) (k0_pay4 (iblk m c 0 t) (iblk m c 1 t) (iblk m c 2 t) (iblk m c 3 t))⟩ : View.Piece (Elt Ideal) S64x32x32x1 .f32)] (ix4 b i j u)
    = wFn (m ((c : Thread nD τ).loc main_arg0)) (m ((c : Thread nD τ).loc main_arg1)) (m ((c : Thread nD τ).loc main_arg2)) (m ((c : Thread nD τ).loc main_arg3)) (((cfg0.win 8).blk t).view.emb (ix4 b i j u))
  rw [w_emb t b i j u, canon8_eq (iblk m c 0 t) (iblk m c 1 t) (iblk m c 2 t) (iblk m c 3 t) (ix4 b i j u)]
  have hi : ix8_0 (ix4 b i j u) = ix3 b i j := funext fun a => Fin.ext (by
    match a with | ⟨0, _⟩ => rfl | ⟨1, _⟩ => rfl | ⟨2, _⟩ => rfl)
  show k0_pay4 (F := Ideal) (iblk m c 0 t) (iblk m c 1 t) (iblk m c 2 t) (iblk m c 3 t) (ix8_0 (ix4 b i j u))
    = wArr (m ((c : Thread nD τ).loc main_arg0)) (m ((c : Thread nD τ).loc main_arg1)) (mat (m ((c : Thread nD τ).loc main_arg2))) (mat (m ((c : Thread nD τ).loc main_arg3))) (item (blockOf t) b) i j
  rw [hi, weights_apply hs (iblk m c 0 t) (iblk m c 1 t) (iblk m c 2 t) (iblk m c 3 t) b i j]
  unfold wArr
  rw [feat_point m c t b, keys_mat m c t, queries_mat m c t]

/-! ## The blocks cover the arrays -/

/-- An index of the advantages is in point `t`'s block iff each coordinate is in the block's range. -/
theorem mem_blk_adv (t : Fin cfg0.N) (i : S4096x32x16.Idx) :
    i ∈ ((cfg0.win 7).blk t).view.set ↔ ∀ a : Fin 3, win0_7.index t a * S64x32x16.size a ≤ (i a).val
      ∧ (i a).val < win0_7.index t a * S64x32x16.size a + S64x32x16.size a := by
  show i ∈ ((View.whole main_v10_0).slice (win0_7.rect t)).set ↔ _
  rw [View.set_slice_whole, Rect.mem_set_unit]
  exact Iff.rfl

theorem mem_blk_w (t : Fin cfg0.N) (i : S4096x32x32x1.Idx) :
    i ∈ ((cfg0.win 8).blk t).view.set ↔ ∀ a : Fin 4, win0_8.index t a * S64x32x32x1.size a ≤ (i a).val
      ∧ (i a).val < win0_8.index t a * S64x32x32x1.size a + S64x32x32x1.size a := by
  show i ∈ ((View.whole main_v10_1).slice (win0_8.rect t)).set ↔ _
  rw [View.set_slice_whole, Rect.mem_set_unit]
  exact Iff.rfl

/-- The point whose block holds batch item `p`: `p / 64`. -/
def pointOf (p : ℕ) (hp : p < 4096) : Fin cfg0.N := ⟨p / 64, by rw [show cfg0.N = 64 from N_0]; omega⟩

theorem pointOf_val (p : ℕ) (hp : p < 4096) : (pointOf p hp).val = p / 64 := rfl

/-- Every index of the advantages is in the block of the point `(i 0) / 64`. -/
theorem cover_adv (i : S4096x32x16.Idx) :
    ∃ t : Fin cfg0.N, (cfg0.win 7).flush t = true ∧ i ∈ ((cfg0.win 7).blk t).view.set := by
  have hi0 : (i 0).val < 4096 := (i 0).isLt
  have hi1 : (i 1).val < 32 := (i 1).isLt
  have hi2 : (i 2).val < 16 := (i 2).isLt
  obtain ⟨-, -, -, -, -, -, e0, e1, e2, -⟩ := idx_batch (pointOf (i 0).val hi0)
  have hv := pointOf_val (i 0).val hi0
  refine ⟨pointOf (i 0).val hi0, flush0_7 _, ?_⟩
  rw [mem_blk_adv]
  intro a
  match a with
  | ⟨0, _⟩ => show win0_7.index _ (0 : Fin 3) * 64 ≤ (i 0).val ∧ (i 0).val < win0_7.index _ (0 : Fin 3) * 64 + 64; rw [e0, hv]; omega
  | ⟨1, _⟩ => show win0_7.index _ (1 : Fin 3) * 32 ≤ (i 1).val ∧ (i 1).val < win0_7.index _ (1 : Fin 3) * 32 + 32; rw [e1]; omega
  | ⟨2, _⟩ => show win0_7.index _ (2 : Fin 3) * 16 ≤ (i 2).val ∧ (i 2).val < win0_7.index _ (2 : Fin 3) * 16 + 16; rw [e2]; omega

theorem cover_w (i : S4096x32x32x1.Idx) :
    ∃ t : Fin cfg0.N, (cfg0.win 8).flush t = true ∧ i ∈ ((cfg0.win 8).blk t).view.set := by
  have hi0 : (i 0).val < 4096 := (i 0).isLt
  have hi1 : (i 1).val < 32 := (i 1).isLt
  have hi2 : (i 2).val < 32 := (i 2).isLt
  have hi3 : (i 3).val < 1 := (i 3).isLt
  obtain ⟨-, -, -, -, -, -, -, -, -, e0, e1, e2, e3⟩ := idx_batch (pointOf (i 0).val hi0)
  have hv := pointOf_val (i 0).val hi0
  refine ⟨pointOf (i 0).val hi0, flush0_8 _, ?_⟩
  rw [mem_blk_w]
  intro a
  match a with
  | ⟨0, _⟩ => show win0_8.index _ (0 : Fin 4) * 64 ≤ (i 0).val ∧ (i 0).val < win0_8.index _ (0 : Fin 4) * 64 + 64; rw [e0, hv]; omega
  | ⟨1, _⟩ => show win0_8.index _ (1 : Fin 4) * 32 ≤ (i 1).val ∧ (i 1).val < win0_8.index _ (1 : Fin 4) * 32 + 32; rw [e1]; omega
  | ⟨2, _⟩ => show win0_8.index _ (2 : Fin 4) * 32 ≤ (i 2).val ∧ (i 2).val < win0_8.index _ (2 : Fin 4) * 32 + 32; rw [e2]; omega
  | ⟨3, _⟩ => show win0_8.index _ (3 : Fin 4) * 1 ≤ (i 3).val ∧ (i 3).val < win0_8.index _ (3 : Fin 4) * 1 + 1; rw [e3]; omega

/-! ## The arrays after the run -/

/-- After the run the advantages are the specification's array. -/
theorem final_adv (hs : SoftRead) (c : Dev nD) : (dats m 0 c).arrAt 7 cfg0.N = advFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_adv m hs c t) cover_adv

/-- After the run the attention weights are the specification's array. -/
theorem final_w (hs : SoftRead) (c : Dev nD) : (dats m 0 c).arrAt 8 cfg0.N = wFn (m ((c : Thread nD τ).loc main_arg0)) (m ((c : Thread nD τ).loc main_arg1)) (m ((c : Thread nD τ).loc main_arg2)) (m ((c : Thread nD τ).loc main_arg3)) :=
  (dats m 0 c).arrAt_eq_of_cover 8 _ (fun t _ => flushed_w m hs c t) cover_w

/-- The kernel's run: every execution ends with the two results at the specification's arrays of the arguments, and
    the arguments unchanged. -/
theorem run (hs : SoftRead) : θ_run defs (onTc (τ := τ) (main (F := Ideal))) ⟨m, fun _ => 0, ρ⟩ fun r => ∀ c : Dev nD,
      r.2.mem ((c : Thread nD τ).loc main_v10_0) = advFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v10_1) = wFn (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_adv m hs c), (h c).2.1.trans (final_w m hs c), (h c).2.2⟩)
    (run_blocks m ρ)

end Cert.Attn.KernelArray

end
-- ==== Proof.RefTerm.lean ====
/-
  The reference computation, stage by stage, on whole arrays.

  Each definition is one step of the attention network as the reference spells it on arrays with all 4096 batch
  items: the two inputs side by side, a dense projection, the scaled scores, a stable softmax along the last axis,
  the averaged mixture of value rows, the two layers of the output network with a leaky rectifier between them.
  The composites at the end are the two results as functions of the seven arguments.
-/
import proofs.«172909_j61976378081551_1_alg».proof.Proof.Gen.ReferenceIdeal

noncomputable section

namespace Cert.ReferenceIdeal.Stage

open Cert.ReferenceIdeal Cert.ReferenceIdeal.Gen Idealize.ShloMosaic

variable {F : FTy → Type} [FloatOps F]

/-- States and actions side by side along the feature axis: 240 + 16 = 256 features per agent. -/
def cat (a0 : FVec F S4096x32x240 .f32) (a1 : FVec F S4096x32x16 .f32) : FVec F S4096x32x256 .f32 :=
  concatenate S4096x32x256 2 [⟨S4096x32x240, a0⟩, ⟨S4096x32x16, a1⟩] concatenates_S4096x32x240_S4096x32x16_S4096x32x256_d2

/-- A dense projection of every agent's 256 features by the rows of a 256 × 256 weight matrix. -/
def proj (x : FVec F S4096x32x256 .f32) (W : FVec F S256x256 .f32) : FVec F S4096x32x256 .f32 :=
  Host.dotGeneral dot_S4096x32x256_S256x256_S4096x32x256_2_1_01_0_n_n none x W

/-- The scores: within a batch item the inner products of key rows with query rows, divided by the square root of 256. -/
def score (K Q : FVec F S4096x32x256 .f32) : FVec F S4096x32x32 .f32 :=
  Host.divf (Host.dotGeneral dot_S4096x32x256_S4096x32x256_S4096x32x32_2_2_1_1_0_0 none K Q)
    (broadcastInDim S4096x32x32 ![] bcast_S_S4096x32x32 (Host.sqrt (constant S_ .f32 0x43800000#32)))

/-- The row maximum of the scores (started from minus infinity), kept per batch item and row. -/
def rowMax (s : FVec F S4096x32x32 .f32) : FVec F S4096x32 .f32 :=
  maximumf (broadcastInDim S4096x32 ![] bcast_S_S4096x32 (constant S_ .f32 0xFF800000#32))
    (Host.reduce FloatOps.maximumf s (constant S_ .f32 0xFF800000#32) reducesTo_S4096x32x32_S4096x32_d2 h_S_)

/-- A per-row number repeated along the row. -/
def alongRow (v : FVec F S4096x32 .f32) : FVec F S4096x32x32 .f32 :=
  broadcastInDim S4096x32x32 ![0, 1, 2] bcast_S4096x32x1_S4096x32x32_0_1_2
    (broadcastInDim S4096x32x1 ![0, 1] bcast_S4096x32_S4096x32x1_0_1 v)

/-- The exponentials of the scores shifted by their row maximum. -/
def expShift (s : FVec F S4096x32x32 .f32) : FVec F S4096x32x32 .f32 :=
  Host.exp (subf s (alongRow (rowMax s)))

/-- The stable softmax along the last axis: shifted exponentials over their row sum. -/
def soft (s : FVec F S4096x32x32 .f32) : FVec F S4096x32x32 .f32 :=
  Host.divf (expShift s)
    (alongRow (Host.reduceAdd (expShift s) (constant S_ .f32 0x00000000#32) reducesTo_S4096x32x32_S4096x32_d2 h_S_))

/-- The mixture of value rows by the attention weights, divided by the number of agents, 32. -/
def mix (w : FVec F S4096x32x32 .f32) (V : FVec F S4096x32x256 .f32) : FVec F S4096x32x256 .f32 :=
  Host.divf (Host.dotGeneral dot_S4096x32x32_S4096x32x256_S4096x32x256_2_1_1_2_0_0 none w V)
    (broadcastInDim S4096x32x256 ![] bcast_S_S4096x32x256 (constant S_ .f32 0x42000000#32))

/-- The first layer of the output network: 256 features to 64. -/
def hidden (z : FVec F S4096x32x256 .f32) (W1 : FVec F S64x256 .f32) : FVec F S4096x32x64 .f32 :=
  Host.dotGeneral dot_S4096x32x256_S64x256_S4096x32x64_2_1_01_0_n_n none z W1

/-- The leaky rectifier: a number that is at least zero is kept, any other is multiplied by the slope. -/
def leaky (h : FVec F S4096x32x64 .f32) : FVec F S4096x32x64 .f32 :=
  select (cmpf .oge h (broadcastInDim S4096x32x64 ![] bcast_S_S4096x32x64 (constant S_ .f32 0x00000000#32))) h
    (mulf (broadcastInDim S4096x32x64 ![] bcast_S_S4096x32x64 (id (constant S_ .f32 0x3C23D70A#32))) h)

/-- The second layer of the output network: 64 features to 16. -/
def outp (h : FVec F S4096x32x64 .f32) (W2 : FVec F S16x64 .f32) : FVec F S4096x32x16 .f32 :=
  Host.dotGeneral dot_S4096x32x64_S16x64_S4096x32x16_2_1_01_0_n_n none h W2

/-- The attention weights as a function of the arguments. -/
def wts (a0 : FVec F S4096x32x240 .f32) (a1 : FVec F S4096x32x16 .f32) (Wk Wq : FVec F S256x256 .f32) :
    FVec F S4096x32x32 .f32 :=
  soft (score (proj (cat a0 a1) Wk) (proj (cat a0 a1) Wq))

/-- The first result: the advantage of every agent. -/
def adv (a0 : FVec F S4096x32x240 .f32) (a1 : FVec F S4096x32x16 .f32) (Wk Wq Wv : FVec F S256x256 .f32)
    (W1 : FVec F S64x256 .f32) (W2 : FVec F S16x64 .f32) : FVec F S4096x32x16 .f32 :=
  outp (leaky (hidden (mix (wts a0 a1 Wk Wq) (proj (cat a0 a1) Wv)) W1)) W2

/-- The second result: the attention weights with a trailing axis of length one. -/
def wOut (a0 : FVec F S4096x32x240 .f32) (a1 : FVec F S4096x32x16 .f32) (Wk Wq : FVec F S256x256 .f32) :
    FVec F S4096x32x32x1 .f32 :=
  broadcastInDim S4096x32x32x1 ![0, 1, 2] bcast_S4096x32x32_S4096x32x32x1_0_1_2 (wts a0 a1 Wk Wq)

end Cert.ReferenceIdeal.Stage

end
-- ==== Proof.RefRun.lean ====
/-
  The reference program's run, read back.

  The reference's @main is a straight line of host operations with one call to the leaky rectifier, whose body in
  turn calls the selection helper. A call executes the callee's body on the operands, each value of the body in a
  buffer of its own, so the whole program is one list of 38 operations: @main's own, with the rectifier's six
  and the selection's one in the place of the call, over the buffers that call names. Run in order from the launch
  contents, every weakly fair execution terminates with the two results at the stages' composition
  (`Stage.adv`, `Stage.wOut`) of the seven arguments, and the arguments unchanged.
-/
import proofs.«172909_j61976378081551_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 38 operations in order, the calls unfolded: twenty-nine of @main's own up to the slope constant;
    the rectifier's six (the zero, its broadcast, the comparison with it, the slope converted to its own type, its
    broadcast, the product with the slope) and the selection between the value and that product, into the buffers
    of the call; then the second layer's product and the weights' trailing axis. -/
abbrev ops : List (HloOp τ sig (Elt F)) :=
  [ binary main_arg0 main_arg1 main_v0 ((fun a b => concatenate S4096x32x256 2 [⟨S4096x32x240, a⟩, ⟨S4096x32x16, b⟩] concatenates_S4096x32x240_S4096x32x16_S4096x32x256_d2) : (⟨S4096x32x240, .f32⟩ : BufTy).Contents (Elt F) → (⟨S4096x32x16, .f32⟩ : BufTy).Contents (Elt F) → (⟨S4096x32x256, .f32⟩ : BufTy).Contents (Elt F)),
    binary main_v0 main_arg2 main_v1 ((fun l r => Host.dotGeneral dot_S4096x32x256_S256x256_S4096x32x256_2_1_01_0_n_n none l r) : (⟨S4096x32x256, .f32⟩ : BufTy).Contents (Elt F) → (⟨S256x256, .f32⟩ : BufTy).Contents (Elt F) → (⟨S4096x32x256, .f32⟩ : BufTy).Contents (Elt F)),
    binary main_v0 main_arg3 main_v2 ((fun l r => Host.dotGeneral dot_S4096x32x256_S256x256_S4096x32x256_2_1_01_0_n_n none l r) : (⟨S4096x32x256, .f32⟩ : BufTy).Contents (Elt F) → (⟨S256x256, .f32⟩ : BufTy).Contents (Elt F) → (⟨S4096x32x256, .f32⟩ : BufTy).Contents (Elt F)),
    binary main_v0 main_arg4 main_v3 ((fun l r => Host.dotGeneral dot_S4096x32x256_S256x256_S4096x32x256_2_1_01_0_n_n none l r) : (⟨S4096x32x256, .f32⟩ : BufTy).Contents (Elt F) → (⟨S256x256, .f32⟩ : BufTy).Contents (Elt F) → (⟨S4096x32x256, .f32⟩ : BufTy).Contents (Elt F)),
    binary main_v1 main_v2 main_v4 ((fun l r => Host.dotGeneral dot_S4096x32x256_S4096x32x256_S4096x32x32_2_2_1_1_0_0 none l r) : (⟨S4096x32x256, .f32⟩ : BufTy).Contents (Elt F) → (⟨S4096x32x256, .f32⟩ : BufTy).Contents (Elt F) → (⟨S4096x32x32, .f32⟩ : BufTy).Contents (Elt F)),
    nullary main_cst (constant S_ .f32 0x43800000#32),
    unary main_cst main_v5 (Host.sqrt : (⟨S_, .f32⟩ : BufTy).Contents (Elt F) → (⟨S_, .f32⟩ : BufTy).Contents (Elt F)),
    unary main_v5 main_v6 (broadcastInDim S4096x32x32 ![] bcast_S_S4096x32x32 : (⟨S_, .f32⟩ : BufTy).Contents (Elt F) → (⟨S4096x32x32, .f32⟩ : BufTy).Contents (Elt F)),
    binary main_v4 main_v6 main_v7 (Host.divf : (⟨S4096x32x32, .f32⟩ : BufTy).Contents (Elt F) → (⟨S4096x32x32, .f32⟩ : BufTy).Contents (Elt F) → (⟨S4096x32x32, .f32⟩ : BufTy).Contents (Elt F)),
    nullary main_cst_0 (constant S_ .f32 0xFF800000#32),
    binary main_v7 main_cst_0 main_v8 ((fun x v => Host.reduce FloatOps.maximumf x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    nullary main_cst_1 (constant S_ .f32 0xFF800000#32),
    unary main_cst_1 main_v9 (broadcastInDim S4096x32 ![] bcast_S_S4096x32 : (⟨S_, .f32⟩ : BufTy).Contents (Elt F) → (⟨S4096x32, .f32⟩ : BufTy).Contents (Elt F)),
    binary main_v9 main_v8 main_v10 (maximumf : (⟨S4096x32, .f32⟩ : BufTy).Contents (Elt F) → (⟨S4096x32, .f32⟩ : BufTy).Contents (Elt F) → (⟨S4096x32, .f32⟩ : BufTy).Contents (Elt F)),
    unary main_v10 main_v11 (broadcastInDim S4096x32x1 ![0, 1] bcast_S4096x32_S4096x32x1_0_1 : (⟨S4096x32, .f32⟩ : BufTy).Contents (Elt F) → (⟨S4096x32x1, .f32⟩ : BufTy).Contents (Elt F)),
    unary main_v11 main_v12 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    binary main_v7 main_v12 main_v13 (subf : (⟨S4096x32x32, .f32⟩ : BufTy).Contents (Elt F) → (⟨S4096x32x32, .f32⟩ : BufTy).Contents (Elt F) → (⟨S4096x32x32, .f32⟩ : BufTy).Contents (Elt F)),
    unary main_v13 main_v14 (Host.exp : (⟨S4096x32x32, .f32⟩ : BufTy).Contents (Elt F) → (⟨S4096x32x32, .f32⟩ : BufTy).Contents (Elt F)),
    nullary main_cst_2 (constant S_ .f32 0x00000000#32),
    binary main_v14 main_cst_2 main_v15 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    unary main_v15 main_v16 (broadcastInDim S4096x32x1 ![0, 1] bcast_S4096x32_S4096x32x1_0_1 : (⟨S4096x32, .f32⟩ : BufTy).Contents (Elt F) → (⟨S4096x32x1, .f32⟩ : BufTy).Contents (Elt F)),
    unary main_v16 main_v17 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    binary main_v14 main_v17 main_v18 (Host.divf : (⟨S4096x32x32, .f32⟩ : BufTy).Contents (Elt F) → (⟨S4096x32x32, .f32⟩ : BufTy).Contents (Elt F) → (⟨S4096x32x32, .f32⟩ : BufTy).Contents (Elt F)),
    binary main_v18 main_v3 main_v19 ((fun l r => Host.dotGeneral dot_S4096x32x32_S4096x32x256_S4096x32x256_2_1_1_2_0_0 none l r) : (⟨S4096x32x32, .f32⟩ : BufTy).Contents (Elt F) → (⟨S4096x32x256, .f32⟩ : BufTy).Contents (Elt F) → (⟨S4096x32x256, .f32⟩ : BufTy).Contents (Elt F)),
    nullary main_cst_3 (constant S_ .f32 0x42000000#32),
    unary main_cst_3 main_v20 (broadcastInDim S4096x32x256 ![] bcast_S_S4096x32x256 : (⟨S_, .f32⟩ : BufTy).Contents (Elt F) → (⟨S4096x32x256, .f32⟩ : BufTy).Contents (Elt F)),
    binary main_v19 main_v20 main_v21 (Host.divf : (⟨S4096x32x256, .f32⟩ : BufTy).Contents (Elt F) → (⟨S4096x32x256, .f32⟩ : BufTy).Contents (Elt F) → (⟨S4096x32x256, .f32⟩ : BufTy).Contents (Elt F)),
    binary main_v21 main_arg5 main_v22 ((fun l r => Host.dotGeneral dot_S4096x32x256_S64x256_S4096x32x64_2_1_01_0_n_n none l r) : (⟨S4096x32x256, .f32⟩ : BufTy).Contents (Elt F) → (⟨S64x256, .f32⟩ : BufTy).Contents (Elt F) → (⟨S4096x32x64, .f32⟩ : BufTy).Contents (Elt F)),
    nullary main_cst_4 (constant S_ .f32 0x3C23D70A#32),
    TRef.nullary main_call0.cst (constant S_ .f32 0x00000000#32),
    TRef.unary main_call0.cst main_call0.v0 (broadcastInDim S4096x32x64 ![] bcast_S_S4096x32x64),
    TRef.binary (.of main_v22 : TRef sig ⟨S4096x32x64, .f32⟩) main_call0.v0 main_call0.v1 (cmpf .oge),
    TRef.unary (.of main_cst_4 : TRef sig ⟨S_, .f32⟩) main_call0.v2 id,
    TRef.unary main_call0.v2 main_call0.v3 (broadcastInDim S4096x32x64 ![] bcast_S_S4096x32x64),
    TRef.binary main_call0.v3 (.of main_v22 : TRef sig ⟨S4096x32x64, .f32⟩) main_call0.v4 mulf,
    TRef.ternary main_call0.v1 (.of main_v22 : TRef sig ⟨S4096x32x64, .f32⟩) main_call0.v4 main_call0.call0.v0 select,
    binary main_v23 main_arg6 main_v24 ((fun l r => Host.dotGeneral dot_S4096x32x64_S16x64_S4096x32x16_2_1_01_0_n_n none l r) : (⟨S4096x32x64, .f32⟩ : BufTy).Contents (Elt F) → (⟨S16x64, .f32⟩ : BufTy).Contents (Elt F) → (⟨S4096x32x16, .f32⟩ : BufTy).Contents (Elt F)),
    unary main_v18 main_v25 (broadcastInDim S4096x32x32x1 ![0, 1, 2] bcast_S4096x32x32_S4096x32x32x1_0_1_2 : (⟨S4096x32x32, .f32⟩ : BufTy).Contents (Elt F) → (⟨S4096x32x32x1, .f32⟩ : BufTy).Contents (Elt F)) ]

-- thirty-eight binds re-associated: the rewrite under the chain recurses once per statement
set_option maxRecDepth 2048 in
/-- @main is that straight line: the two functions unfolded at their calls and the records at their fields, both
    sides are one chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the list touches TensorCore references only. -/
theorem ops_sub : (ops : List (HloOp τ sig (Elt F))).Forall fun op => op.bufs ⊆ tcRefs τ sig :=
  ⟨binary_bufs_sub .., binary_bufs_sub .., binary_bufs_sub .., binary_bufs_sub .., binary_bufs_sub .., nullary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    nullary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub ..⟩

/-- On every device, for any float values, from any memory with zero counters: every weakly fair execution of
    @main terminates with the first result at the advantage of the seven arguments, the second at the attention
    weights of the first four, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = Stage.adv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v25) = Stage.wOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v24).trans (by after_results_simp; rfl),
      (h c main_v25).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.RefRun

end
-- ==== Proof.RefRead.lean ====
/-
  The reference's two results, read at an index.

  Each stage of the reference computation on whole arrays is read at one index and found to be the corresponding
  entry-by-entry function of the specification on the batch item of that index: the two inputs side by side are the
  item's features, a dense projection is the inner product of a row with a weight row, the score is the scaled inner
  product of a key row with a query row, the mixture is the weighted sum of value rows over the number of agents, the
  rectifier acts on each number. The one law used is that dividing by the square root of 256 is multiplying by one
  sixteenth, on every extended real. The softmax stage is taken as a hypothesis (`SoftRead`), to be supplied by the
  module that reads a softmax along the last axis.
-/
import proofs.«172909_j61976378081551_1_alg».proof.Proof.RefTerm
import proofs.«172909_j61976378081551_1_alg».proof.Proof.AttnSpec
import proofs.«172909_j61976378081551_1_alg».proof.Proof.LibBatchDot
import Idealize.ShloMosaic.Lib.IdealHost
import Idealize.ShloMosaic.Lib.Pipeline.Value

noncomputable section

open scoped BigOperators

namespace Cert.Attn.RefRead

open Idealize.ShloMosaic Idealize.ShloMosaic.ValueIdx
open Cert.ReferenceIdeal Cert.ReferenceIdeal.Gen

/-- The softmax stage read at an index is the stable softmax of the row through that index: proved in another
    module; taken here as a hypothesis so that the two modules are independent. -/
def SoftRead : Prop :=
  ∀ (s : FVec Ideal Cert.ReferenceIdeal.S4096x32x32 .f32) (b : Fin 4096) (i j : Fin 32),
    Cert.ReferenceIdeal.Stage.soft (F := Ideal) s (ix3 b i j) = Cert.Attn.softRow (fun j' : Fin 32 => s (ix3 b i j')) j

/-! ## The constants of the one law -/

/-- The word `0x43800000` is the real 256. -/
theorem ofBits_256 : Ideal.ofBits .f32 0x43800000#32 = ((256 : ℝ) : EReal) := by
  simp [Ideal.ofBits, Ideal.ieee, -EReal.coe_mul]; norm_num

/-- The word `0x3D800000` is the real one sixteenth. -/
theorem ofBits_sixteenth : Ideal.ofBits .f32 0x3D800000#32 = (((1 : ℝ) / 16 : ℝ) : EReal) := by
  simp [Ideal.ofBits, Ideal.ieee, -EReal.coe_mul]; norm_num

/-- The square root of 256 is 16. -/
theorem sqrt_256 : Real.sqrt 256 = 16 := by
  rw [show (256 : ℝ) = 16 ^ 2 by norm_num]
  exact Real.sqrt_sq (by norm_num)

/-- Dividing by the square root of 256 is multiplying by one sixteenth, on every extended real. -/
theorem div_sqrt_256 (x : EReal) :
    Ideal.div x (Ideal.sqrt (Ideal.ofBits .f32 0x43800000#32)) = x * Ideal.ofBits .f32 0x3D800000#32 := by
  rw [ofBits_256, ofBits_sixteenth, Ideal.sqrt_coe, if_neg (by norm_num), sqrt_256, Ideal.div_coe (by norm_num)]

/-! ## The stages at an index -/

/-- The two inputs side by side, at agent `n` of item `b`, are that agent's features. -/
theorem cat_apply (a0 : FVec Ideal S4096x32x240 .f32) (a1 : FVec Ideal S4096x32x16 .f32)
    (b : Fin 4096) (n : Fin 32) (d : Fin 256) :
    Stage.cat (F := Ideal) a0 a1 (ix3 b n d) = feat a0 a1 b n d := by
  unfold Stage.cat feat
  by_cases h : d.val < 240
  · rw [dif_pos h]
    exact concatenate_pair_apply_left (2 : Fin 3) a0 a1 _ (ix3 b n d) rfl (ix3 b n ⟨d.val, h⟩)
      (fun c => by
        match c with
        | ⟨0, _⟩ => rfl
        | ⟨1, _⟩ => rfl
        | ⟨2, _⟩ => rfl)
  · rw [dif_neg h]
    exact concatenate_pair_apply_right (2 : Fin 3) a0 a1 _ (ix3 b n d) rfl rfl
      (ix3 b n ⟨d.val - 240, by have := d.isLt; omega⟩)
      (fun c hc => by
        match c, hc with
        | ⟨0, _⟩, _ => rfl
        | ⟨1, _⟩, _ => rfl
        | ⟨2, _⟩, hc => exact absurd rfl hc)
      (by show d.val - 240 + 240 = d.val; omega)

/-- A dense projection at row `n` of item `b` and output feature `k`: the row against weight row `k`. -/
theorem proj_apply (x : FVec Ideal S4096x32x256 .f32) (W : FVec Ideal S256x256 .f32)
    (b : Fin 4096) (n : Fin 32) (k : Fin 256) :
    Stage.proj (F := Ideal) x W (ix3 b n k) = dense (fun n' d => x (ix3 b n' d)) (mat W) n k := by
  unfold Stage.proj
  refine (Ideal.dotGeneral_apply _ _ _ _ _ _).trans ?_
  exact Idealize.ShloMosaic.BatchDot.rows_sum (B := 4096) (M := 32) (D := 256) (K := 256) _ x W b n k

/-- The first layer of the output network, likewise. -/
theorem hidden_apply (z : FVec Ideal S4096x32x256 .f32) (W1 : FVec Ideal S64x256 .f32)
    (b : Fin 4096) (n : Fin 32) (k : Fin 64) :
    Stage.hidden (F := Ideal) z W1 (ix3 b n k) = dense (fun n' d => z (ix3 b n' d)) (mat W1) n k := by
  unfold Stage.hidden
  refine (Ideal.dotGeneral_apply _ _ _ _ _ _).trans ?_
  exact Idealize.ShloMosaic.BatchDot.rows_sum (B := 4096) (M := 32) (D := 256) (K := 64) _ z W1 b n k

/-- The second layer of the output network, likewise. -/
theorem outp_apply (h : FVec Ideal S4096x32x64 .f32) (W2 : FVec Ideal S16x64 .f32)
    (b : Fin 4096) (n : Fin 32) (k : Fin 16) :
    Stage.outp (F := Ideal) h W2 (ix3 b n k) = dense (fun n' d => h (ix3 b n' d)) (mat W2) n k := by
  unfold Stage.outp
  refine (Ideal.dotGeneral_apply _ _ _ _ _ _).trans ?_
  exact Idealize.ShloMosaic.BatchDot.rows_sum (B := 4096) (M := 32) (D := 64) (K := 16) _ h W2 b n k

/-- The score of key row `i` against query row `j` of item `b`: their inner product, scaled by one sixteenth. -/
theorem score_apply (K Q : FVec Ideal S4096x32x256 .f32) (b : Fin 4096) (i j : Fin 32) :
    Stage.score (F := Ideal) K Q (ix3 b i j)
      = scores (fun n d => K (ix3 b n d)) (fun n d => Q (ix3 b n d)) i j := by
  unfold Stage.score
  refine (hostDivf_apply _ _ _).trans ?_
  rw [broadcastInDim_scalar_apply]
  refine (congrArg (fun s => Ideal.div s _) ((Ideal.dotGeneral_apply _ _ _ _ _ _).trans
    (Idealize.ShloMosaic.BatchDot.pair_sum (B := 4096) (M := 32) (N := 32) (D := 256) _ K Q b i j))).trans ?_
  exact div_sqrt_256 _

/-- The mixture at row `i` of item `b` and feature `d`: the weighted sum of the value rows, over the number of agents. -/
theorem mix_apply (w : FVec Ideal S4096x32x32 .f32) (V : FVec Ideal S4096x32x256 .f32)
    (b : Fin 4096) (i : Fin 32) (d : Fin 256) :
    Stage.mix (F := Ideal) w V (ix3 b i d)
      = mixed (fun i' j => w (ix3 b i' j)) (fun j d' => V (ix3 b j d')) i d := by
  unfold Stage.mix
  refine (hostDivf_apply _ _ _).trans ?_
  rw [broadcastInDim_scalar_apply]
  exact congrArg (fun s => Ideal.div s _) ((Ideal.dotGeneral_apply _ _ _ _ _ _).trans
    (Idealize.ShloMosaic.BatchDot.mix_sum (B := 4096) (M := 32) (N := 32) (D := 256) _ w V b i d))

/-- The rectifier acts on each number. -/
theorem leaky_apply (h : FVec Ideal S4096x32x64 .f32) (j : S4096x32x64.Idx) :
    Stage.leaky (F := Ideal) h j = leak (h j) := by
  unfold Stage.leaky leak
  rw [select_apply, cmpf_apply, mulf_apply, broadcastInDim_scalar_apply, broadcastInDim_scalar_apply]
  rfl

/-! ## The composites -/

/-- A dense projection of the inputs side by side is the dense layer on the item's features. -/
theorem proj_cat (a0 : FVec Ideal S4096x32x240 .f32) (a1 : FVec Ideal S4096x32x16 .f32) (W : FVec Ideal S256x256 .f32)
    (b : Fin 4096) (n : Fin 32) (k : Fin 256) :
    Stage.proj (F := Ideal) (Stage.cat a0 a1) W (ix3 b n k) = dense (feat a0 a1 b) (mat W) n k :=
  (proj_apply _ W b n k).trans (Finset.sum_congr rfl fun d _ => congrArg (· * mat W k d) (cat_apply a0 a1 b n d))

/-- The scores of the projected inputs are the specification's scores on the item. -/
theorem score_cat (a0 : FVec Ideal S4096x32x240 .f32) (a1 : FVec Ideal S4096x32x16 .f32) (Wk Wq : FVec Ideal S256x256 .f32)
    (b : Fin 4096) (i j : Fin 32) :
    Stage.score (F := Ideal) (Stage.proj (Stage.cat a0 a1) Wk) (Stage.proj (Stage.cat a0 a1) Wq) (ix3 b i j)
      = scores (dense (feat a0 a1 b) (mat Wk)) (dense (feat a0 a1 b) (mat Wq)) i j :=
  (score_apply _ _ b i j).trans (congrArg (· * scale) (Finset.sum_congr rfl fun d _ =>
    congrArg₂ (· * ·) (proj_cat a0 a1 Wk b i d) (proj_cat a0 a1 Wq b j d)))

/-- The attention weights at an index are the specification's, on the item of the index. -/
theorem wts_apply (hs : SoftRead) (a0 : FVec Ideal S4096x32x240 .f32) (a1 : FVec Ideal S4096x32x16 .f32)
    (Wk Wq : FVec Ideal S256x256 .f32) (b : Fin 4096) (i j : Fin 32) :
    Stage.wts (F := Ideal) a0 a1 Wk Wq (ix3 b i j) = weightsOf (feat a0 a1 b) (mat Wk) (mat Wq) i j := by
  unfold Stage.wts weightsOf
  exact (hs _ b i j).trans (congrArg (fun s => softRow s j) (funext fun j' => score_cat a0 a1 Wk Wq b i j'))

/-- The second result at an index: the attention weights of the item, the trailing axis of length one ignored. -/
theorem wOut_apply (hs : SoftRead) (a0 : FVec Ideal Cert.ReferenceIdeal.S4096x32x240 .f32)
    (a1 : FVec Ideal Cert.ReferenceIdeal.S4096x32x16 .f32) (Wk Wq : FVec Ideal Cert.ReferenceIdeal.S256x256 .f32)
    (b : Fin 4096) (i j : Fin 32) (u : Fin 1) :
    Cert.ReferenceIdeal.Stage.wOut (F := Ideal) a0 a1 Wk Wq (ix4 b i j u)
      = Cert.Attn.wArr a0 a1 (Cert.Attn.mat Wk) (Cert.Attn.mat Wq) b i j := by
  unfold Stage.wOut wArr
  refine (broadcastInDim_apply _ _ _ (ix4 b i j u) (ix3 b i j) (fun a => ?_)).trans (wts_apply hs a0 a1 Wk Wq b i j)
  match a with
  | ⟨0, _⟩ => exact (if_neg (show ¬ ((4096 : ℕ) = 1) by decide)).symm
  | ⟨1, _⟩ => exact (if_neg (show ¬ ((32 : ℕ) = 1) by decide)).symm
  | ⟨2, _⟩ => exact (if_neg (show ¬ ((32 : ℕ) = 1) by decide)).symm

/-- The mixture of the projected values by the attention weights is the specification's, on the item. -/
theorem mix_cat (hs : SoftRead) (a0 : FVec Ideal S4096x32x240 .f32) (a1 : FVec Ideal S4096x32x16 .f32)
    (Wk Wq Wv : FVec Ideal S256x256 .f32) (b : Fin 4096) (i : Fin 32) (d : Fin 256) :
    Stage.mix (F := Ideal) (Stage.wts a0 a1 Wk Wq) (Stage.proj (Stage.cat a0 a1) Wv) (ix3 b i d)
      = mixed (weightsOf (feat a0 a1 b) (mat Wk) (mat Wq)) (dense (feat a0 a1 b) (mat Wv)) i d :=
  (mix_apply _ _ b i d).trans (congrArg (fun s => Ideal.div s agents) (Finset.sum_congr rfl fun j _ =>
    congrArg₂ (· * ·) (wts_apply hs a0 a1 Wk Wq b i j) (proj_cat a0 a1 Wv b j d)))

/-- The first result at an index: the advantage of agent `n` of item `b` for output `o`. -/
theorem adv_apply (hs : SoftRead) (a0 : FVec Ideal Cert.ReferenceIdeal.S4096x32x240 .f32)
    (a1 : FVec Ideal Cert.ReferenceIdeal.S4096x32x16 .f32) (Wk Wq Wv : FVec Ideal Cert.ReferenceIdeal.S256x256 .f32)
    (W1 : FVec Ideal Cert.ReferenceIdeal.S64x256 .f32) (W2 : FVec Ideal Cert.ReferenceIdeal.S16x64 .f32)
    (b : Fin 4096) (n : Fin 32) (o : Fin 16) :
    Cert.ReferenceIdeal.Stage.adv (F := Ideal) a0 a1 Wk Wq Wv W1 W2 (ix3 b n o)
      = Cert.Attn.advArr a0 a1 (Cert.Attn.mat Wk) (Cert.Attn.mat Wq) (Cert.Attn.mat Wv) (Cert.Attn.mat W1) (Cert.Attn.mat W2) b n o := by
  unfold Stage.adv advArr advOf
  refine (outp_apply _ W2 b n o).trans (Finset.sum_congr rfl fun h _ => congrArg (· * mat W2 o h) ?_)
  refine (leaky_apply _ _).trans (congrArg leak ?_)
  refine (hidden_apply _ W1 b n h).trans (Finset.sum_congr rfl fun d _ => congrArg (· * mat W1 h d) ?_)
  exact mix_cat hs a0 a1 Wk Wq Wv b n d

end Cert.Attn.RefRead

end
-- ==== Proof.RefArray.lean ====
/-
  The reference's two results as whole arrays.

  An array is determined by its entries, and every index of a rank-3 (rank-4) array is its three (four) coordinates:
  so the reference's first result is the array of the specification's advantages, and its second the array of the
  specification's attention weights, entry by entry from the results read at an index.
-/
import proofs.«172909_j61976378081551_1_alg».proof.Proof.RefRead
import proofs.«172909_j61976378081551_1_alg».proof.Proof.AttnArrays

noncomputable section

namespace Cert.Attn.RefArray

open Idealize.ShloMosaic Idealize.ShloMosaic.ValueIdx

/-- The reference's first result is the array of the specification's advantages. -/
theorem adv_eq (hs : Cert.Attn.RefRead.SoftRead) (a0 : FVec Ideal Cert.ReferenceIdeal.S4096x32x240 .f32)
    (a1 : FVec Ideal Cert.ReferenceIdeal.S4096x32x16 .f32) (Wk Wq Wv : FVec Ideal Cert.ReferenceIdeal.S256x256 .f32)
    (W1 : FVec Ideal Cert.ReferenceIdeal.S64x256 .f32) (W2 : FVec Ideal Cert.ReferenceIdeal.S16x64 .f32) :
    Cert.ReferenceIdeal.Stage.adv (F := Ideal) a0 a1 Wk Wq Wv W1 W2 = Cert.Attn.advFn a0 a1 Wk Wq Wv W1 W2 := by
  funext i
  obtain ⟨b, n, o, rfl⟩ : ∃ (b : Fin 4096) (n : Fin 32) (o : Fin 16), i = ix3 b n o := ⟨i 0, i 1, i 2, eq_ix3 i⟩
  exact Cert.Attn.RefRead.adv_apply hs a0 a1 Wk Wq Wv W1 W2 b n o

/-- The reference's second result is the array of the specification's attention weights. -/
theorem wOut_eq (hs : Cert.Attn.RefRead.SoftRead) (a0 : FVec Ideal Cert.ReferenceIdeal.S4096x32x240 .f32)
    (a1 : FVec Ideal Cert.ReferenceIdeal.S4096x32x16 .f32) (Wk Wq : FVec Ideal Cert.ReferenceIdeal.S256x256 .f32) :
    Cert.ReferenceIdeal.Stage.wOut (F := Ideal) a0 a1 Wk Wq = Cert.Attn.wFn a0 a1 Wk Wq := by
  funext i
  obtain ⟨b, n, j, u, rfl⟩ : ∃ (b : Fin 4096) (n j : Fin 32) (u : Fin 1), i = ix4 b n j u :=
    ⟨i 0, i 1, i 2, i 3, eq_ix4 i⟩
  exact Cert.Attn.RefRead.wOut_apply hs a0 a1 Wk Wq b n j u

end Cert.Attn.RefArray

end
-- ==== Proof.LibSoftmaxLast.lean ====
/-
  A stable softmax along the last axis of a rank-3 array, step by step, read at an index.

  Over an array of extents [B, M, N] every step acts within one row (b, i, ·): the row's maximum and the row's sum
  are reductions over the last axis; the reduced [B, M] array, kept with a unit last axis and repeated along it,
  gives every entry of row (b, i) that row's number. A kernel spells the reductions as lane reductions and the
  repetition as a shape cast followed by a broadcast; a host program spells them as its reduce and two
  broadcasts in dimensions. Each lemma reads one such step at an index built from its coordinates.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.SoftmaxLast

open Idealize.ShloMosaic Idealize.ShloMosaic.ValueIdx

variable {B M N : ℕ}

/-- The index over (b, i) with coordinate k put back on the reduced last axis is (b, i, k). -/
theorem lift_last (h : (⟨3, ![B, M, N]⟩ : Shape).Reduces [2] (⟨2, ![B, M]⟩ : Shape)) (b : Fin B) (i : Fin M)
    (k : Fin ((⟨3, ![B, M, N]⟩ : Shape).size 2)) :
    h.lift (ix2 b i) k = ix3 b i (⟨k.val, k.isLt⟩ : Fin N) := by
  funext c; apply Fin.ext
  fin_cases c <;> rfl

/-! ## The reductions over the last axis -/

/-- A lane maximum over the last axis, at (b, i): the fold of the maximum over row (b, i) from the accumulator's value. -/
theorem laneMax_apply {φ : FTy} (s : FVec Ideal ⟨3, ![B, M, N]⟩ φ) (acc : BitVec φ.bits)
    (h : (⟨3, ![B, M, N]⟩ : Shape).Reduces [2] (⟨2, ![B, M]⟩ : Shape)) (hφ : FKind.Formats φ)
    (hacc : acc = FKind.maximumf.neutral φ hφ) (b : Fin B) (i : Fin M) :
    multiReduction .maximumf [2] ⟨2, ![B, M]⟩ s acc h hφ hacc (ix2 b i)
      = (Finset.univ : Finset (Fin N)).fold max (Ideal.ofBits φ acc) (fun k => s (ix3 b i k)) := by
  refine (Ideal.multiReduction_maximumf_single s acc h hφ hacc (ix2 b i)).trans ?_
  exact congrArg (fun f => Finset.fold max (Ideal.ofBits φ acc) f (Finset.univ : Finset (Fin N)))
    (funext fun k => congrArg s (lift_last h b i k))

/-- A lane sum over the last axis, at (b, i): the sum of row (b, i). -/
theorem laneSum_apply {φ : FTy} (e : FVec Ideal ⟨3, ![B, M, N]⟩ φ) (acc : BitVec φ.bits)
    (h : (⟨3, ![B, M, N]⟩ : Shape).Reduces [2] (⟨2, ![B, M]⟩ : Shape)) (hφ : FKind.Formats φ)
    (hacc : acc = FKind.add.neutral φ hφ) (b : Fin B) (i : Fin M) :
    multiReduction .add [2] ⟨2, ![B, M]⟩ e acc h hφ hacc (ix2 b i) = ∑ k : Fin N, e (ix3 b i k) := by
  refine (Ideal.multiReduction_add_single e acc h hφ hacc (ix2 b i)).trans ?_
  exact Finset.sum_congr rfl fun k _ => congrArg e (lift_last h b i k)

/-- The host's reduce by the maximum over the last axis, at (b, i): the fold of the maximum over row (b, i) from
    the initial value. -/
theorem hostMax_apply {φ : FTy} {u : Shape} (s : FVec Ideal ⟨3, ![B, M, N]⟩ φ) (init : u.Idx → Ideal φ)
    (h' : (⟨3, ![B, M, N]⟩ : Shape).ReducesTo [2] (⟨2, ![B, M]⟩ : Shape))
    (h : (⟨3, ![B, M, N]⟩ : Shape).Reduces [2] (⟨2, ![B, M]⟩ : Shape)) (hu : 0 < u.numel) (b : Fin B) (i : Fin M) :
    Host.reduce FloatOps.maximumf s init h' hu (ix2 b i)
      = (Finset.univ : Finset (Fin N)).fold max (init (Shape.Idx.first hu)) (fun k => s (ix3 b i k)) := by
  refine (Host.reduce_eq_fold_single FloatOps.maximumf s init h' h hu (ix2 b i)).trans ?_
  exact congrArg (fun f => Finset.fold max (init (Shape.Idx.first hu)) f (Finset.univ : Finset (Fin N)))
    (funext fun k => congrArg s (lift_last h b i k))

/-- The host's reduce by addition over the last axis, at (b, i): the initial value plus the sum of row (b, i). -/
theorem hostSum_apply {φ : FTy} {u : Shape} (e : FVec Ideal ⟨3, ![B, M, N]⟩ φ) (init : u.Idx → Ideal φ)
    (h' : (⟨3, ![B, M, N]⟩ : Shape).ReducesTo [2] (⟨2, ![B, M]⟩ : Shape))
    (h : (⟨3, ![B, M, N]⟩ : Shape).Reduces [2] (⟨2, ![B, M]⟩ : Shape)) (hu : 0 < u.numel) (b : Fin B) (i : Fin M) :
    Host.reduceAdd e init h' hu (ix2 b i) = init (Shape.Idx.first hu) + ∑ k : Fin N, e (ix3 b i k) := by
  refine (hostReduceAdd_apply e init h' hu (ix2 b i)).trans ?_
  refine (Ideal.hostReduceAdd_single h' h e _ (ix2 b i)).trans ?_
  exact congrArg (fun t => init (Shape.Idx.first hu) + t)
    (Finset.sum_congr rfl fun k _ => congrArg e (lift_last h b i k))

/-! ## A per-row number repeated along the row -/

variable {α : Type}

/-- A [B, M] array cast to [B, M, 1] reads, at (b, i, u), the operand at (b, i): the same row-major position. -/
theorem shapeCast_keep_apply (v : (⟨2, ![B, M]⟩ : Shape).Idx → α)
    (h : (⟨2, ![B, M]⟩ : Shape).ShapeCasts ⟨3, ![B, M, 1]⟩) (b : Fin B) (i : Fin M) (u : Fin 1) :
    shapeCast ⟨3, ![B, M, 1]⟩ v h (ix3 b i u) = v (ix2 b i) :=
  shapeCast_apply v h _ _ (by
    have hu : u.val = 0 := by omega
    rw [Shape.rowMajor_val_three, Shape.rowMajor_val_two]
    show b.val * M + i.val = (b.val * M + i.val) * 1 + u.val
    rw [hu, Nat.mul_one, Nat.add_zero])

/-- A [B, M, 1] array broadcast to [B, M, N] reads, at (b, i, j), the operand at (b, i, 0). -/
theorem broadcastTo_last_apply (v : (⟨3, ![B, M, 1]⟩ : Shape).Idx → α)
    (h : (⟨3, ![B, M, 1]⟩ : Shape).Broadcasts ⟨3, ![B, M, N]⟩) (b : Fin B) (i : Fin M) (j : Fin N) :
    broadcastTo ⟨3, ![B, M, N]⟩ v h (ix3 b i j) = v (ix3 b i (0 : Fin 1)) := by
  refine broadcastTo_apply v h (ix3 b i j) (ix3 b i (0 : Fin 1)) fun ax => ?_
  match ax with
  | ⟨0, _⟩ =>
    show b.val = if B = 1 then 0 else b.val
    split
    · have := b.isLt; omega
    · rfl
  | ⟨1, _⟩ =>
    show i.val = if M = 1 then 0 else i.val
    split
    · have := i.isLt; omega
    · rfl
  | ⟨2, _⟩ => rfl

/-- A [B, M] array broadcast in dimensions [0, 1] to [B, M, 1] reads, at (b, i, u), the operand at (b, i). -/
theorem broadcastInDim_keep_apply (v : (⟨2, ![B, M]⟩ : Shape).Idx → α)
    (h : (⟨2, ![B, M]⟩ : Shape).BroadcastsInDim ⟨3, ![B, M, 1]⟩ ![0, 1]) (b : Fin B) (i : Fin M) (u : Fin 1) :
    broadcastInDim ⟨3, ![B, M, 1]⟩ ![0, 1] h v (ix3 b i u) = v (ix2 b i) := by
  refine broadcastInDim_apply ![0, 1] h v (ix3 b i u) (ix2 b i) fun ax => ?_
  match ax with
  | ⟨0, _⟩ =>
    show b.val = if B = 1 then 0 else b.val
    split
    · have := b.isLt; omega
    · rfl
  | ⟨1, _⟩ =>
    show i.val = if M = 1 then 0 else i.val
    split
    · have := i.isLt; omega
    · rfl

/-- A [B, M, 1] array broadcast in dimensions [0, 1, 2] to [B, M, N] reads, at (b, i, j), the operand at (b, i, 0). -/
theorem broadcastInDim_last_apply (v : (⟨3, ![B, M, 1]⟩ : Shape).Idx → α)
    (h : (⟨3, ![B, M, 1]⟩ : Shape).BroadcastsInDim ⟨3, ![B, M, N]⟩ ![0, 1, 2]) (b : Fin B) (i : Fin M) (j : Fin N) :
    broadcastInDim ⟨3, ![B, M, N]⟩ ![0, 1, 2] h v (ix3 b i j) = v (ix3 b i (0 : Fin 1)) := by
  refine broadcastInDim_apply ![0, 1, 2] h v (ix3 b i j) (ix3 b i (0 : Fin 1)) fun ax => ?_
  match ax with
  | ⟨0, _⟩ =>
    show b.val = if B = 1 then 0 else b.val
    split
    · have := b.isLt; omega
    · rfl
  | ⟨1, _⟩ =>
    show i.val = if M = 1 then 0 else i.val
    split
    · have := i.isLt; omega
    · rfl
  | ⟨2, _⟩ => rfl

end Idealize.ShloMosaic.SoftmaxLast

end
-- ==== Proof.SoftmaxRead.lean ====
/-
  The stable softmax stage of both programs, read at an index over the extended reals.

  Both programs take, for every batch item b and row i, the row's largest score (a maximum started from minus
  infinity and met with minus infinity once more), subtract it from every score of the row, exponentiate, and divide
  each exponential by the sum of the row's exponentials. The kernel does this on a block of 64 batch items with lane
  reductions, a shape cast and a broadcast; the reference on all 4096 batch items with its reduce and broadcasts in
  dimensions. Read at (b, i, j), each is the softmax of the row j' ↦ s (b, i, j') at j, as the specification writes it.
-/
import proofs.«172909_j61976378081551_1_alg».proof.Proof.AttnSpec
import proofs.«172909_j61976378081551_1_alg».proof.Proof.KernelTerm
import proofs.«172909_j61976378081551_1_alg».proof.Proof.RefTerm
import proofs.«172909_j61976378081551_1_alg».proof.Proof.LibSoftmaxLast
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.Attn.SoftmaxRead

open Idealize.ShloMosaic Idealize.ShloMosaic.ValueIdx Idealize.ShloMosaic.SoftmaxLast

/-! ## The kernel's spelling, on a block of 64 batch items -/

section kernel
open Cert.KernelIdeal Cert.KernelIdeal.Gen Cert.KernelIdeal.Stage

/-- The kernel's row maximum at (b, i) is the largest entry of row (b, i). -/
theorem kernel_rowMax_apply (s : FVec Ideal S64x32x32 .f32) (b : Fin 64) (i : Fin 32) :
    rowMax (F := Ideal) s (ix2 b i) = rowTop (fun j' : Fin 32 => s (ix3 b i j')) :=
  congrArg (max ninf) (laneMax_apply s 0xFF800000#32 reduces_S64x32x32_S64x32 (.inl rfl) rfl b i)

/-- The kernel's repetition along the row gives entry (b, i, j) the number of row (b, i). -/
theorem kernel_alongRow_apply (v : FVec Ideal S64x32 .f32) (b : Fin 64) (i j : Fin 32) :
    alongRow (F := Ideal) v (ix3 b i j) = v (ix2 b i) :=
  (broadcastTo_last_apply _ broadcasts_S64x32x1_S64x32x32 b i j).trans
    (shapeCast_keep_apply v shapeCasts_S64x32_S64x32x1 b i 0)

/-- The kernel's shifted exponential at (b, i, j). -/
theorem kernel_expShift_apply (s : FVec Ideal S64x32x32 .f32) (b : Fin 64) (i j : Fin 32) :
    expShift (F := Ideal) s (ix3 b i j) = shifted (fun j' : Fin 32 => s (ix3 b i j')) j :=
  congrArg (fun t => Ideal.exp (s (ix3 b i j) - t))
    ((kernel_alongRow_apply (rowMax s) b i j).trans (kernel_rowMax_apply s b i))

/-- The kernel's softmax at (b, i, j) is the softmax of row (b, i) at j. -/
theorem kernel_soft_apply (s : FVec Ideal Cert.KernelIdeal.S64x32x32 .f32) (b : Fin 64) (i j : Fin 32) :
    Cert.KernelIdeal.Stage.soft (F := Ideal) s (ix3 b i j) = Cert.Attn.softRow (fun j' : Fin 32 => s (ix3 b i j')) j :=
  congrArg₂ Ideal.div (kernel_expShift_apply s b i j)
    ((kernel_alongRow_apply _ b i j).trans
      ((laneSum_apply (expShift s) 0x00000000#32 reduces_S64x32x32_S64x32 (.inl rfl) rfl b i).trans
        (Finset.sum_congr rfl fun k _ => kernel_expShift_apply s b i k)))

end kernel

/-! ## The reference's spelling, on all 4096 batch items -/

section reference
open Cert.ReferenceIdeal Cert.ReferenceIdeal.Gen Cert.ReferenceIdeal.Stage

/-- The last axis of a [4096, 32, 32] array reduces to [4096, 32]. -/
theorem reduces_last : S4096x32x32.Reduces [2] S4096x32 := by decide

/-- The reference's row maximum at (b, i) is the largest entry of row (b, i). -/
theorem reference_rowMax_apply (s : FVec Ideal S4096x32x32 .f32) (b : Fin 4096) (i : Fin 32) :
    rowMax (F := Ideal) s (ix2 b i) = rowTop (fun j' : Fin 32 => s (ix3 b i j')) := by
  unfold rowMax
  rw [maximumf_apply, broadcastInDim_scalar_apply, constant_apply,
    hostMax_apply s _ reducesTo_S4096x32x32_S4096x32_d2 reduces_last h_S_ b i, constant_apply]
  rfl

/-- The reference's repetition along the row gives entry (b, i, j) the number of row (b, i). -/
theorem reference_alongRow_apply (v : FVec Ideal S4096x32 .f32) (b : Fin 4096) (i j : Fin 32) :
    alongRow (F := Ideal) v (ix3 b i j) = v (ix2 b i) :=
  (broadcastInDim_last_apply _ bcast_S4096x32x1_S4096x32x32_0_1_2 b i j).trans
    (broadcastInDim_keep_apply v bcast_S4096x32_S4096x32x1_0_1 b i 0)

/-- The reference's shifted exponential at (b, i, j). -/
theorem reference_expShift_apply (s : FVec Ideal S4096x32x32 .f32) (b : Fin 4096) (i j : Fin 32) :
    expShift (F := Ideal) s (ix3 b i j) = shifted (fun j' : Fin 32 => s (ix3 b i j')) j :=
  congrArg (fun t => Ideal.exp (s (ix3 b i j) - t))
    ((reference_alongRow_apply (rowMax s) b i j).trans (reference_rowMax_apply s b i))

/-- The reference's row sum of a [4096, 32, 32] array at (b, i): started from the zero word, it is the sum of the row. -/
theorem reference_rowSum_apply (e : FVec Ideal S4096x32x32 .f32) (b : Fin 4096) (i : Fin 32) :
    Host.reduceAdd e (constant (F := Ideal) S_ .f32 0x00000000#32) reducesTo_S4096x32x32_S4096x32_d2 h_S_ (ix2 b i)
      = ∑ k : Fin 32, e (ix3 b i k) := by
  refine (hostSum_apply e (constant (F := Ideal) S_ .f32 0x00000000#32)
    reducesTo_S4096x32x32_S4096x32_d2 reduces_last h_S_ b i).trans ?_
  show Ideal.ofBits .f32 0x00000000#32 + _ = _
  rw [Ideal.ofBits_zero_f32, zero_add]

/-- The reference's softmax at (b, i, j) is the softmax of row (b, i) at j. -/
theorem reference_soft_apply (s : FVec Ideal Cert.ReferenceIdeal.S4096x32x32 .f32) (b : Fin 4096) (i j : Fin 32) :
    Cert.ReferenceIdeal.Stage.soft (F := Ideal) s (ix3 b i j) = Cert.Attn.softRow (fun j' : Fin 32 => s (ix3 b i j')) j :=
  congrArg₂ Ideal.div (reference_expShift_apply s b i j)
    ((reference_alongRow_apply _ b i j).trans
      ((reference_rowSum_apply (expShift s) b i).trans
        (Finset.sum_congr rfl fun k _ => reference_expShift_apply s b i k)))

end reference

end Cert.Attn.SoftmaxRead

end
-- ==== Proof.lean ====
/-
  An attention network over 4096 independent batch items of 32 agents: a Pallas kernel against its jnp reference.

  Both programs put each agent's 240 observed numbers and 16 action numbers side by side, project the 256 features to
  keys, queries and values, score key `i` against query `j`, take a stable softmax of each row of scores, mix the value
  rows by the weights and divide by 32, and read the result with a two-layer network with a leaky rectifier between the
  layers.  They return the advantages and the attention weights.  The kernel works through the batch in 64 blocks of 64
  items, lays each block's agents out as 2048 rows for the dense layers, takes the weight matrices transposed
  beforehand, rounds to a shorter format on the way into every matrix product and multiplies the scores by one
  sixteenth; the reference works on all items at once, in one format, and divides the scores by the square root of 256.

  Over the extended reals a change of format keeps every number and a matrix product is the plain sum of products, so
  both programs compute, item by item, the same entry-by-entry function of the arguments (AttnSpec.lean): the kernel by
  KernelDense.lean, KernelAttn.lean and, from blocks to whole arrays, KernelArray.lean; the reference by its run
  (RefRun.lean) read stage by stage (RefRead.lean, RefArray.lean); the softmax stage in both spellings by
  SoftmaxRead.lean.  The one law between the two texts is that dividing by the square root of 256 is multiplying by one
  sixteenth, which holds for every extended real; nothing needs the inputs to be finite.  The three frames are the
  generated frame runs and the reference's run with its results dropped; the idealized kernel is the kernel's own text
  read over the extended reals, so nothing is owed for it.
-/
import proofs.«172909_j61976378081551_1_alg».proof.Defs
import proofs.«172909_j61976378081551_1_alg».proof.Proof.Gen.Kernel
import proofs.«172909_j61976378081551_1_alg».proof.Proof.Gen.Kernel.Skeleton
import proofs.«172909_j61976378081551_1_alg».proof.Proof.Gen.Kernel.Launch
import proofs.«172909_j61976378081551_1_alg».proof.Proof.Gen.Kernel.Points
import proofs.«172909_j61976378081551_1_alg».proof.Proof.Gen.Kernel.Frame
import proofs.«172909_j61976378081551_1_alg».proof.Proof.Gen.KernelIdeal
import proofs.«172909_j61976378081551_1_alg».proof.Proof.Gen.KernelIdeal.Skeleton
import proofs.«172909_j61976378081551_1_alg».proof.Proof.Gen.KernelIdeal.Launch
import proofs.«172909_j61976378081551_1_alg».proof.Proof.Gen.KernelIdeal.Points
import proofs.«172909_j61976378081551_1_alg».proof.Proof.Gen.KernelIdeal.Frame
import proofs.«172909_j61976378081551_1_alg».proof.Proof.Gen.KernelIdeal.Value
import proofs.«172909_j61976378081551_1_alg».proof.Proof.Gen.ReferenceIdeal
import proofs.«172909_j61976378081551_1_alg».proof.Proof.Gen.Pre_finite_inputs
import proofs.«172909_j61976378081551_1_alg».proof.Proof.KernelArray
import proofs.«172909_j61976378081551_1_alg».proof.Proof.RefRun
import proofs.«172909_j61976378081551_1_alg».proof.Proof.RefArray
import proofs.«172909_j61976378081551_1_alg».proof.Proof.SoftmaxRead
import Idealize.ShloMosaic.Adequacy
import Idealize.ShloMosaic.Init

noncomputable section

namespace Cert.Proof

open Idealize.ShloMosaic Idealize.ShloMosaic.TcCoe Idealize.SL.Sem

/-- The softmax stage of the kernel, read at an index. -/
theorem kernel_soft : Cert.Attn.KernelAttn.SoftRead :=
  fun s b i j => Cert.Attn.SoftmaxRead.kernel_soft_apply s b i j

/-- The softmax stage of the reference, read at an index. -/
theorem reference_soft : Cert.Attn.RefRead.SoftRead :=
  fun s b i j => Cert.Attn.SoftmaxRead.reference_soft_apply s b i j

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2)
    (Cert.ReferenceIdeal.RefRun.run (F := Ideal) m ρ)

/-- The idealized kernel is the kernel's own text: there is no rewrite to account for. -/
theorem preserves : Cert.preserves_Kernel_KernelIdeal := trivial

/-- From memories that agree on the arguments both programs end with the advantages and the attention weights at the
    specification's arrays of those arguments. -/
theorem algebraic : Cert.algebraic_KernelIdeal_ReferenceIdeal := by
  intro m ρ m' ρ' _ hagree
  refine ⟨fun c => Cert.Attn.advFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Attn.wFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.Attn.KernelArray.run m ρ kernel_soft, ?_⟩
  refine (θ_run Cert.ReferenceIdeal.defs _ _).mono
    (fun _ h c => ⟨(h c).1.trans ?_, (h c).2.1.trans ?_, (h c).2.2⟩)
    (Cert.ReferenceIdeal.RefRun.run (F := Ideal) m' ρ')
  · obtain ⟨h0, h1, h2, h3, h4, h5, h6⟩ := hagree c
    rw [Cert.Attn.RefArray.adv_eq reference_soft, h0, h1, h2, h3, h4, h5, h6]
  · obtain ⟨h0, h1, h2, h3, -⟩ := hagree c
    rw [Cert.Attn.RefArray.wOut_eq reference_soft, h0, h1, h2, h3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
